-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x90 : Shape := ⟨2, ![262144, 90]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x4 : Shape := ⟨2, ![256, 4]⟩
abbrev S4 : Shape := ⟨1, ![4]⟩
abbrev S_ : Shape := ⟨0, ![]⟩

class Facts : Prop where
  bcast_S_S262144x90 : S_.BroadcastsInDim S262144x90 (![] : Fin 0 → Fin S262144x90.rank)
  reducesTo_S262144x90_S_d0_1 : S262144x90.ReducesTo [0, 1] S_
  h_S_ : 0 < S_.numel
  bcast_S_S63x256 : S_.BroadcastsInDim S63x256 (![] : Fin 0 → Fin S63x256.rank)
  reducesTo_S63x256_S_d0_1 : S63x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S319x256 : S_.BroadcastsInDim S319x256 (![] : Fin 0 → Fin S319x256.rank)
  reducesTo_S319x256_S_d0_1 : S319x256.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part5 {F : FTy → Type} [FloatOps F] (main_arg18 : FVec F S4 .f32) (main_v83 : IVec S_ 1) (main_v84 : FVec F S256x4 .f32) (main_cst_32 : FVec F S_ .f32) : IVec S_ 1 :=
  let main_v85 : FVec F S256x4 .f32 := broadcastInDim S256x4 ![] bcast_S_S256x4 main_cst_32
  let main_v86 : IVec S256x4 1 := cmpf .olt main_v84 main_v85
  let main_c_33 : IVec S_ 1 := constantI S_ 1 1#1
  let main_v87 : IVec S_ 1 := (fun x v => Host.reduce IntOp.andi x v reducesTo_S256x4_S_d0_1 h_S_) main_v86 main_c_33
  let main_v88 : IVec S_ 1 := andi main_v83 main_v87
  let main_v89 : FVec F S4 .f32 := Host.absf main_arg18
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  main_v93

def fn_part4 {F : FTy → Type} [FloatOps F] (main_arg14 : FVec F S256 .f32) (main_arg15 : FVec F S256x256 .f32) (main_arg16 : FVec F S256 .f32) (main_arg17 : FVec F S256x4 .f32) (main_arg18 : FVec F S4 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x4 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S319x256 .f32) (main_arg12 : FVec F S256 .f32) (main_arg13 : FVec F S256x256 .f32) (main_arg14 : FVec F S256 .f32) (main_arg15 : FVec F S256x256 .f32) (main_arg16 : FVec F S256 .f32) (main_arg17 : FVec F S256x4 .f32) (main_arg18 : FVec F S4 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S319x256 .f32 := Host.absf main_arg11
  let main_cst_20 : FVec F S_ .f32 := constant S_ .f32 0x7F800000#32
  let main_v55 : FVec F S319x256 .f32 := broadcastInDim S319x256 ![] bcast_S_S319x256 main_cst_20
  let main_v56 : IVec S319x256 1 := cmpf .olt main_v54 main_v55
  let main_c_21 : IVec S_ 1 := constantI S_ 1 1#1
  let main_v57 : IVec S_ 1 := (fun x v => Host.reduce IntOp.andi x v reducesTo_S319x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_v63 main_v67

def fn_part2 {F : FTy → Type} [FloatOps F] (main_arg7 : FVec F S256x256 .f32) (main_arg8 : FVec F S256 .f32) (main_arg9 : FVec F S256x256 .f32) (main_arg10 : FVec F S256 .f32) (main_arg11 : FVec F S319x256 .f32) (main_arg12 : FVec F S256 .f32) (main_arg13 : FVec F S256x256 .f32) (main_arg14 : FVec F S256 .f32) (main_arg15 : FVec F S256x256 .f32) (main_arg16 : FVec F S256 .f32) (main_arg17 : FVec F S256x4 .f32) (main_arg18 : FVec F S4 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S319x256 .f32) (main_arg12 : FVec F S256 .f32) (main_arg13 : FVec F S256x256 .f32) (main_arg14 : FVec F S256 .f32) (main_arg15 : FVec F S256x256 .f32) (main_arg16 : FVec F S256 .f32) (main_arg17 : FVec F S256x4 .f32) (main_arg18 : FVec F S4 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S262144x90 .f32) (main_arg1 : FVec F S63x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S319x256 .f32) (main_arg12 : FVec F S256 .f32) (main_arg13 : FVec F S256x256 .f32) (main_arg14 : FVec F S256 .f32) (main_arg15 : FVec F S256x256 .f32) (main_arg16 : FVec F S256 .f32) (main_arg17 : FVec F S256x4 .f32) (main_arg18 : FVec F S4 .f32) : IVec S_ 1 :=
  let main_v0 : FVec F S262144x90 .f32 := Host.absf main_arg0
  let main_cst : FVec F S_ .f32 := constant S_ .f32 0x7F800000#32
  let main_v1 : FVec F S262144x90 .f32 := broadcastInDim S262144x90 ![] bcast_S_S262144x90 main_cst
  let main_v2 : IVec S262144x90 1 := cmpf .olt main_v0 main_v1
  let main_c : IVec S_ 1 := constantI S_ 1 1#1
  let main_v3 : IVec S_ 1 := (fun x v => Host.reduce IntOp.andi x v reducesTo_S262144x90_S_d0_1 h_S_) main_v2 main_c
  let main_v4 : FVec F S63x256 .f32 := Host.absf main_arg1
  let main_cst_0 : FVec F S_ .f32 := constant S_ .f32 0x7F800000#32
  let main_v5 : FVec F S63x256 .f32 := broadcastInDim S63x256 ![] bcast_S_S63x256 main_cst_0
  let main_v6 : IVec S63x256 1 := cmpf .olt main_v4 main_v5
  let main_c_1 : IVec S_ 1 := constantI S_ 1 1#1
  let main_v7 : IVec S_ 1 := (fun x v => Host.reduce IntOp.andi x v reducesTo_S63x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S262144x90 : Shape := ⟨2, ![262144, 90]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x4 : Shape := ⟨2, ![256, 4]⟩
abbrev S4 : Shape := ⟨1, ![4]⟩
abbrev S_ : Shape := ⟨0, ![]⟩
abbrev S128x256 : Shape := ⟨2, ![128, 256]⟩
abbrev S384x256 : Shape := ⟨2, ![384, 256]⟩
abbrev S262144x63 : Shape := ⟨2, ![262144, 63]⟩
abbrev S262144x128 : Shape := ⟨2, ![262144, 128]⟩
abbrev S262144x4 : Shape := ⟨2, ![262144, 4]⟩
abbrev S4096x128 : Shape := ⟨2, ![4096, 128]⟩
abbrev S4096x4 : Shape := ⟨2, ![4096, 4]⟩
abbrev S4096x256 : Shape := ⟨2, ![4096, 256]⟩
abbrev S1x256 : Shape := ⟨2, ![1, 256]⟩
abbrev S4096x384 : Shape := ⟨2, ![4096, 384]⟩
abbrev S1x4 : Shape := ⟨2, ![1, 4]⟩

abbrev nBuf : Space → Nat
  | .hbm => 33
  | .vmem => 22
  | .smem => 0
  | _ => 0

abbrev bufTy : (tb : Table) → Fin (tcTables nBuf tb) → BufTy
  | .hbm, ⟨0, _⟩ => ⟨S262144x90, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S319x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x4, .f32⟩
  | .hbm, ⟨18, _⟩ => ⟨S4, .f32⟩
  | .hbm, ⟨19, _⟩ => ⟨S_, .i32⟩
  | .hbm, ⟨20, _⟩ => ⟨S_, .f32⟩
  | .hbm, ⟨21, _⟩ => ⟨S128x256, .f32⟩
  | .hbm, ⟨22, _⟩ => ⟨S63x256, .f32⟩
  | .hbm, ⟨23, _⟩ => ⟨S256x256, .f32⟩
  | .hbm, ⟨24, _⟩ => ⟨S_, .i32⟩
  | .hbm, ⟨25, _⟩ => ⟨S_, .f32⟩
  | .hbm, ⟨26, _⟩ => ⟨S128x256, .f32⟩
  | .hbm, ⟨27, _⟩ => ⟨S384x256, .f32⟩
  | .hbm, ⟨28, _⟩ => ⟨S262144x63, .f32⟩
  | .hbm, ⟨29, _⟩ => ⟨S_, .i32⟩
  | .hbm, ⟨30, _⟩ => ⟨S_, .f32⟩
  | .hbm, ⟨31, _⟩ => ⟨S262144x128, .f32⟩
  | .hbm, ⟨32, _⟩ => ⟨S262144x4, .f32⟩
  | .local _ .vmem, ⟨0, _⟩ => ⟨S4096x128, .f32⟩
  | .local _ .vmem, ⟨1, _⟩ => ⟨S4096x128, .f32⟩
  | .local _ .vmem, ⟨2, _⟩ => ⟨S128x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S384x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256x256, .f32⟩
  | .local _ .vmem, ⟨17, _⟩ => ⟨S256, .f32⟩
  | .local _ .vmem, ⟨18, _⟩ => ⟨S256x4, .f32⟩
  | .local _ .vmem, ⟨19, _⟩ => ⟨S4, .f32⟩
  | .local _ .vmem, ⟨20, _⟩ => ⟨S4096x4, .f32⟩
  | .local _ .vmem, ⟨21, _⟩ => ⟨S4096x4, .f32⟩
  | _, _ => ⟨S262144x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_call0_v0 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_1 : Ref sig .tc := ⟨.hbm, 29, rfl⟩
abbrev main_call2_v0 : Ref sig .tc := ⟨.hbm, 30, rfl⟩
abbrev main_v6 : Ref sig .tc := ⟨.hbm, 31, rfl⟩
abbrev main_v7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S4096x4 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  pads_S63x256_S128x256_0650_000 : S63x256.Pads (![0, 0] : Fin 2 → Nat) ![65, 0] ![0, 0] S128x256
  h_S_ : 0 < S_.numel
  slices_S319x256_S63x256_0_0 : S319x256.Slices ![0, 0] S63x256
  slices_S319x256_S256x256_63_0 : S319x256.Slices ![63, 0] S256x256
  concatenates_S128x256_S256x256_S384x256_d0 : Shape.Concatenates [S128x256, S256x256] S384x256 0
  slices_S262144x90_S262144x63_0_0 : S262144x90.Slices ![0, 0] S262144x63
  pads_S262144x63_S262144x128_000_0650 : S262144x63.Pads (![0, 0] : Fin 2 → Nat) ![0, 65] ![0, 0] S262144x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  concatenates_S4096x128_S4096x256_S4096x384_d1 : Shape.Concatenates [S4096x128, S4096x256] S4096x384 1
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S4096x4 : S1x4.Broadcasts S4096x4
  inb_S4096x4_S4096x4_0_0 : ∀ a, (![0, 0] : Fin 2 → Nat) a + S4096x4.size a ≤ S4096x4.size a
  h_S4096x4 : 0 < S4096x4.numel
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x384_S384x256_S4096x256_1_0_0_1_n_n_wf : DotDims.WF S4096x384 S384x256 S4096x256 [1] [0] [0] [1] [] []
  dot_S4096x256_S256x4_S4096x4_1_0_0_1_n_n_wf : DotDims.WF S4096x256 S256x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S384x256.size a ≤ S384x256.size a
  hwx0_11 : ∀ i : grid0.Coords, EltTy.bits .f32 = 32 ∨ (Rect.block (s := S384x256) S384x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .f32 = 32 ∨ (Rect.block (s := S256x256) S256x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x4.size a ≤ S256x4.size a
  hwx0_17 : ∀ i : grid0.Coords, EltTy.bits .f32 = 32 ∨ (Rect.block (s := S256x4) S256x4.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S4.size a ≤ S4.size a
  hwx0_18 : ∀ i : grid0.Coords, EltTy.bits .f32 = 32 ∨ (Rect.block (s := S4) S4.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S4096x4.size a ≤ S262144x4.size a
  hwx0_19 : ∀ i : grid0.Coords, EltTy.bits .f32 = 32 ∨ (Rect.block (s := S262144x4) S4096x4.size (cc0_transform_19 i) (hinb0_19 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x384_S384x256_S4096x256_1_0_0_1_n_n : DotDims S4096x384 S384x256 S4096x256 where
  lhsContracting := [1]
  rhsContracting := [0]
  lhsNonContracting := [0]
  rhsNonContracting := [1]
  lhsBatch := []
  rhsBatch := []
  wf := dot_S4096x384_S384x256_S4096x256_1_0_0_1_n_n_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf

abbrev win0_0 : Pipeline.Window sig grid0 :=
  Pipeline.Window.ofSpec (Memref.whole main_v6) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S384x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256x4.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S4.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v7) S4096x4.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S262144x90 : Shape := ⟨2, ![262144, 90]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S256x4 : Shape := ⟨2, ![256, 4]⟩
abbrev S4 : Shape := ⟨1, ![4]⟩
abbrev S262144x63 : Shape := ⟨2, ![262144, 63]⟩
abbrev S262144x256 : Shape := ⟨2, ![262144, 256]⟩
abbrev S1x256 : Shape := ⟨2, ![1, 256]⟩
abbrev S_ : Shape := ⟨0, ![]⟩
abbrev S262144x319 : Shape := ⟨2, ![262144, 319]⟩
abbrev S262144x4 : Shape := ⟨2, ![262144, 4]⟩
abbrev S1x4 : Shape := ⟨2, ![1, 4]⟩

abbrev nBuf : Space → Nat
  | .hbm => 81
  | .vmem => 0
  | .smem => 0
  | _ => 0

abbrev bufTy : (tb : Table) → Fin (tcTables nBuf tb) → BufTy
  | .hbm, ⟨0, _⟩ => ⟨S262144x90, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S319x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x4, .f32⟩
  | .hbm, ⟨18, _⟩ => ⟨S4, .f32⟩
  | .hbm, ⟨19, _⟩ => ⟨S262144x63, .f32⟩
  | .hbm, ⟨20, _⟩ => ⟨S262144x256, .f32⟩
  | .hbm, ⟨21, _⟩ => ⟨S1x256, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S1x256, .f32⟩
  | .hbm, ⟨29, _⟩ => ⟨S262144x256, .f32⟩
  | .hbm, ⟨30, _⟩ => ⟨S262144x256, .f32⟩
  | .hbm, ⟨31, _⟩ => ⟨S_, .f32⟩
  | .hbm, ⟨32, _⟩ => ⟨S262144x256, .f32⟩
  | .hbm, ⟨33, _⟩ => ⟨S262144x256, .f32⟩
  | .hbm, ⟨34, _⟩ => ⟨S262144x256, .f32⟩
  | .hbm, ⟨35, _⟩ => ⟨S1x256, .f32⟩
  | .hbm, ⟨36, _⟩ => ⟨S262144x256, .f32⟩
  | .hbm, ⟨37, _⟩ => ⟨S262144x256, .f32⟩
  | .hbm, ⟨38, _⟩ => ⟨S_, .f32⟩
  | .hbm, ⟨39, _⟩ => ⟨S262144x256, .f32⟩
  | .hbm, ⟨40, _⟩ => ⟨S262144x256, .f32⟩
  | .hbm, ⟨41, _⟩ => ⟨S262144x256, .f32⟩
  | .hbm, ⟨42, _⟩ => ⟨S1x256, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S262144x256, .f32⟩
  | .hbm, ⟨47, _⟩ => ⟨S262144x256, .f32⟩
  | .hbm, ⟨48, _⟩ => ⟨S262144x256, .f32⟩
  | .hbm, ⟨49, _⟩ => ⟨S1x256, .f32⟩
  | .hbm, ⟨50, _⟩ => ⟨S262144x256, .f32⟩
  | .hbm, ⟨51, _⟩ => ⟨S262144x256, .f32⟩
  | .hbm, ⟨52, _⟩ => ⟨S_, .f32⟩
  | .hbm, ⟨53, _⟩ => ⟨S262144x256, .f32⟩
  | .hbm, ⟨54, _⟩ => ⟨S262144x256, .f32⟩
  | .hbm, ⟨55, _⟩ => ⟨S262144x319, .f32⟩
  | .hbm, ⟨56, _⟩ => ⟨S262144x256, .f32⟩
  | .hbm, ⟨57, _⟩ => ⟨S1x256, .f32⟩
  | .hbm, ⟨58, _⟩ => ⟨S262144x256, .f32⟩
  | .hbm, ⟨59, _⟩ => ⟨S262144x256, .f32⟩
  | .hbm, ⟨60, _⟩ => ⟨S_, .f32⟩
  | .hbm, ⟨61, _⟩ => ⟨S262144x256, .f32⟩
  | .hbm, ⟨62, _⟩ => ⟨S262144x256, .f32⟩
  | .hbm, ⟨63, _⟩ => ⟨S262144x256, .f32⟩
  | .hbm, ⟨64, _⟩ => ⟨S1x256, .f32⟩
  | .hbm, ⟨65, _⟩ => ⟨S262144x256, .f32⟩
  | .hbm, ⟨66, _⟩ => ⟨S262144x256, .f32⟩
  | .hbm, ⟨67, _⟩ => ⟨S_, .f32⟩
  | .hbm, ⟨68, _⟩ => ⟨S262144x256, .f32⟩
  | .hbm, ⟨69, _⟩ => ⟨S262144x256, .f32⟩
  | .hbm, ⟨70, _⟩ => ⟨S262144x256, .f32⟩
  | .hbm, ⟨71, _⟩ => ⟨S1x256, .f32⟩
  | .hbm, ⟨72, _⟩ => ⟨S262144x256, .f32⟩
  | .hbm, ⟨73, _⟩ => ⟨S262144x256, .f32⟩
  | .hbm, ⟨74, _⟩ => ⟨S_, .f32⟩
  | .hbm, ⟨75, _⟩ => ⟨S262144x256, .f32⟩
  | .hbm, ⟨76, _⟩ => ⟨S262144x256, .f32⟩
  | .hbm, ⟨77, _⟩ => ⟨S262144x4, .f32⟩
  | .hbm, ⟨78, _⟩ => ⟨S1x4, .f32⟩
  | .hbm, ⟨79, _⟩ => ⟨S262144x4, .f32⟩
  | .hbm, ⟨80, _⟩ => ⟨S262144x4, .f32⟩
  | _, _ => ⟨S262144x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call0_cst : Ref sig .tc := ⟨.hbm, 24, rfl⟩
abbrev main_call0_v0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_call1_cst : Ref sig .tc := ⟨.hbm, 31, rfl⟩
abbrev main_call1_v0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call2_cst : Ref sig .tc := ⟨.hbm, 38, rfl⟩
abbrev main_call2_v0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call3_cst : Ref sig .tc := ⟨.hbm, 45, rfl⟩
abbrev main_call3_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_call4_cst : Ref sig .tc := ⟨.hbm, 52, rfl⟩
abbrev main_call4_v0 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call5_cst : Ref sig .tc := ⟨.hbm, 60, rfl⟩
abbrev main_call5_v0 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_call6_cst : Ref sig .tc := ⟨.hbm, 67, rfl⟩
abbrev main_call6_v0 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call7_cst : Ref sig .tc := ⟨.hbm, 74, rfl⟩
abbrev main_call7_v0 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩

abbrev nD : Nat := 1
abbrev τ : Topo := Topo.v7x

variable {F : FTy → Type} [FloatOps F]

class Facts₀ : Prop where
  slices_S262144x90_S262144x63_0_0 : S262144x90.Slices ![0, 0] S262144x63
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  concatenates_S262144x63_S262144x256_S262144x319_d1 : Shape.Concatenates [S262144x63, S262144x256] S262144x319 1
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x4_S262144x4_1_0_0_1_n_n_wf : DotDims.WF S262144x256 S256x4 S262144x4 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x4_S262144x4_1_0_0_1_n_n : DotDims S262144x256 S256x4 S262144x4 where
  lhsContracting := [1]
  rhsContracting := [0]
  lhsNonContracting := [0]
  rhsNonContracting := [1]
  lhsBatch := []
  rhsBatch := []
  wf := dot_S262144x256_S256x4_S262144x4_1_0_0_1_n_n_wf

class Facts : Prop extends Facts₀ where

variable [Facts]
-- ==== Proof.Net.lean ====
/-
  A multilayer perceptron with one skip connection, as a function of ONE input row, on the extended reals.

  The input row `v` has 63 entries. A linear layer takes a row `u` of K entries to the row whose entry j is
  `∑ k, u k · w (k, j) + b j`; the rectifier takes each entry to its maximum with zero. Five rectified layers
  (63 → 256 → 256 → 256 → 256 → 256) are followed by the skip: the input row is laid in front of the fifth layer's
  output (63 + 256 = 319 entries), then come three more rectified layers (319 → 256 → 256 → 256) and a last
  linear layer to 4 entries without rectifier. This is `net`.

  The same network can be computed on a WIDER row: the input row padded with zeros to 128 entries, the first
  weight matrix given 65 extra rows (any rows: they only ever meet the padding zeros), and the sixth layer's
  matrix given 65 rows between its first 63 rows and its last 256 (63 + 65 + 256 = 384). This is `netWide`,
  and `netWide_eq` says it is `net`: in each of the two widened sums the 65 extra terms are `0 · w = 0`, and a
  sum may be cut into consecutive ranges in any commutative monoid, so nothing here asks an entry to be finite.
-/
import Idealize.ShloMosaic.PureOps.Ideal.Laws
import Idealize.ShloMosaic.Lib.ValueIdx
import Mathlib.Algebra.BigOperators.Fin

noncomputable section

namespace Cert.Mlp

open Idealize.ShloMosaic Idealize.ShloMosaic.ValueIdx

/-- The shape of an array of `R` rows and `w` columns. -/
abbrev Sh2 (R w : Nat) : Shape := ⟨2, ![R, w]⟩

/-- The shape of a vector of `n` entries. -/
abbrev Sh1 (n : Nat) : Shape := ⟨1, ![n]⟩

/-- The zero both programs spell as the f32 word 0x00000000 (the same word on both sides, never evaluated). -/
abbrev zeroWord : EReal := Ideal.ofBits .f32 0x00000000#32

/-- Row `r` of a two-dimensional array. -/
def row {R K : Nat} (a : (Sh2 R K).Idx → EReal) (r : Fin R) : Fin K → EReal := fun k => a (ix2 r k)

/-- A linear layer on one row: entry `j` is `∑ k, u k · w (k, j) + b j`. -/
def lin {K N : Nat} (u : Fin K → EReal) (w : (Sh2 K N).Idx → EReal) (b : (Sh1 N).Idx → EReal) : Fin N → EReal :=
  fun j => ∑ k : Fin K, u k * w (ix2 k j) + b (ix1 j)

/-- The rectifier on one row: each entry's maximum with zero. -/
def act {N : Nat} (u : Fin N → EReal) : Fin N → EReal := fun j => max (u j) zeroWord

/-- The skip: the 63 input entries laid in front of 256 hidden entries. -/
def join (v : Fin 63 → EReal) (h : Fin 256 → EReal) : Fin 319 → EReal :=
  fun k => if hk : k.val < 63 then v ⟨k.val, hk⟩ else h ⟨k.val - 63, by have := k.isLt; omega⟩

/-- The skip on the wide row: 128 entries (the input row and its padding) in front of the 256 hidden entries. -/
def joinWide (vp : Fin 128 → EReal) (h : Fin 256 → EReal) : Fin 384 → EReal :=
  fun k => if hk : k.val < 128 then vp ⟨k.val, hk⟩ else h ⟨k.val - 128, by have := k.isLt; omega⟩

variable (W1 W2 W3 W4 W6 W7 : (Sh2 256 256).Idx → EReal) (b0 b1 b2 b3 b4 b5 b6 b7 : (Sh1 256).Idx → EReal)
  (Wout : (Sh2 256 4).Idx → EReal) (bout : (Sh1 4).Idx → EReal)

/-- Layers two to five, from the first layer's rectified output. -/
def trunk (h : Fin 256 → EReal) : Fin 256 → EReal :=
  act (lin (act (lin (act (lin (act (lin h W1 b1)) W2 b2)) W3 b3)) W4 b4)

/-- Layers seven and eight and the output layer, from the sixth layer's rectified output. -/
def tail (h : Fin 256 → EReal) : Fin 4 → EReal :=
  lin (act (lin (act (lin h W6 b6)) W7 b7)) Wout bout

/-- The network on one input row of 63 entries. -/
def net (v : Fin 63 → EReal) (W0 : (Sh2 63 256).Idx → EReal) (W5 : (Sh2 319 256).Idx → EReal) : Fin 4 → EReal :=
  tail W6 W7 b6 b7 Wout bout (act (lin (join v (trunk W1 W2 W3 W4 b1 b2 b3 b4 (act (lin v W0 b0)))) W5 b5))

/-- The network on the padded row of 128 entries, with the two widened weight matrices. -/
def netWide (vp : Fin 128 → EReal) (W0p : (Sh2 128 256).Idx → EReal) (W5p : (Sh2 384 256).Idx → EReal) : Fin 4 → EReal :=
  tail W6 W7 b6 b7 Wout bout (act (lin (joinWide vp (trunk W1 W2 W3 W4 b1 b2 b3 b4 (act (lin vp W0p b0)))) W5p b5))

/-! ## A sum cut into consecutive ranges -/

section Ranges
variable {M : Type*} [AddCommMonoid M]

theorem sum_two (a b : ℕ) (F : Fin (a + b) → M) :
    ∑ k, F k = ∑ k : Fin a, F ⟨k.val, by have := k.isLt; omega⟩ + ∑ k : Fin b, F ⟨a + k.val, by have := k.isLt; omega⟩ := by
  rw [Fin.sum_univ_add]
  rfl

theorem sum_three (a b c : ℕ) (F : Fin (a + b + c) → M) :
    ∑ k, F k = (∑ k : Fin a, F ⟨k.val, by have := k.isLt; omega⟩ + ∑ k : Fin b, F ⟨a + k.val, by have := k.isLt; omega⟩)
      + ∑ k : Fin c, F ⟨a + b + k.val, by have := k.isLt; omega⟩ := by
  rw [Fin.sum_univ_add, Fin.sum_univ_add]
  rfl

/-- 128 = 63 + 65. -/
theorem sum_128 (F : Fin 128 → M) :
    ∑ k, F k = ∑ k : Fin 63, F ⟨k.val, by have := k.isLt; omega⟩ + ∑ k : Fin 65, F ⟨63 + k.val, by have := k.isLt; omega⟩ :=
  sum_two 63 65 F

/-- 319 = 63 + 256. -/
theorem sum_319 (F : Fin 319 → M) :
    ∑ k, F k = ∑ k : Fin 63, F ⟨k.val, by have := k.isLt; omega⟩ + ∑ k : Fin 256, F ⟨63 + k.val, by have := k.isLt; omega⟩ :=
  sum_two 63 256 F

/-- 384 = 63 + 65 + 256. -/
theorem sum_384 (F : Fin 384 → M) :
    ∑ k, F k = (∑ k : Fin 63, F ⟨k.val, by have := k.isLt; omega⟩ + ∑ k : Fin 65, F ⟨63 + k.val, by have := k.isLt; omega⟩)
      + ∑ k : Fin 256, F ⟨63 + 65 + k.val, by have := k.isLt; omega⟩ :=
  sum_three 63 65 256 F

end Ranges

/-! ## The wide network is the network -/

/-- The first layer on the padded row: the 65 padding entries are zero, so their terms vanish whatever the
    extra rows of the widened matrix hold. -/
theorem lin_wide_first (v : Fin 63 → EReal) (vp : Fin 128 → EReal)
    (W0 : (Sh2 63 256).Idx → EReal) (W0p : (Sh2 128 256).Idx → EReal) (b : (Sh1 256).Idx → EReal)
    (hv : ∀ k : Fin 63, vp ⟨k.val, by have := k.isLt; omega⟩ = v k)
    (hz : ∀ k : Fin 65, vp ⟨63 + k.val, by have := k.isLt; omega⟩ = 0)
    (hw : ∀ (k : Fin 63) (j : Fin 256), W0p (ix2 (⟨k.val, by have := k.isLt; omega⟩ : Fin 128) j) = W0 (ix2 k j)) :
    lin vp W0p b = lin v W0 b := by
  funext j
  show ∑ k : Fin 128, vp k * W0p (ix2 k j) + b (ix1 j) = ∑ k : Fin 63, v k * W0 (ix2 k j) + b (ix1 j)
  rw [sum_128 (fun k : Fin 128 => vp k * W0p (ix2 k j))]
  rw [Finset.sum_eq_zero (fun (k : Fin 65) _ => by rw [hz k, zero_mul]), add_zero]
  exact congrArg (· + b (ix1 j)) (Finset.sum_congr rfl fun k _ => by rw [hv k, hw k j])

/-- The sixth layer on the wide joined row: the first 63 terms and the last 256 are those of the narrow joined
    row, and the 65 terms between them are `0 · w = 0`. -/
theorem lin_wide_join (v : Fin 63 → EReal) (vp : Fin 128 → EReal) (h : Fin 256 → EReal)
    (W5 : (Sh2 319 256).Idx → EReal) (W5p : (Sh2 384 256).Idx → EReal) (b : (Sh1 256).Idx → EReal)
    (hv : ∀ k : Fin 63, vp ⟨k.val, by have := k.isLt; omega⟩ = v k)
    (hz : ∀ k : Fin 65, vp ⟨63 + k.val, by have := k.isLt; omega⟩ = 0)
    (hwa : ∀ (k : Fin 63) (j : Fin 256),
      W5p (ix2 (⟨k.val, by have := k.isLt; omega⟩ : Fin 384) j) = W5 (ix2 (⟨k.val, by have := k.isLt; omega⟩ : Fin 319) j))
    (hwb : ∀ (k : Fin 256) (j : Fin 256),
      W5p (ix2 (⟨63 + 65 + k.val, by have := k.isLt; omega⟩ : Fin 384) j) = W5 (ix2 (⟨63 + k.val, by have := k.isLt; omega⟩ : Fin 319) j)) :
    lin (joinWide vp h) W5p b = lin (join v h) W5 b := by
  funext j
  show ∑ k : Fin 384, joinWide vp h k * W5p (ix2 k j) + b (ix1 j) = ∑ k : Fin 319, join v h k * W5 (ix2 k j) + b (ix1 j)
  rw [sum_384 (fun k : Fin 384 => joinWide vp h k * W5p (ix2 k j)), sum_319 (fun k : Fin 319 => join v h k * W5 (ix2 k j))]
  have e1 : ∀ k : Fin 63, joinWide vp h ⟨k.val, by have := k.isLt; omega⟩ = v k := fun k => by
    have hk : k.val < 128 := by have := k.isLt; omega
    show (if hk : k.val < 128 then vp ⟨k.val, hk⟩ else _) = v k
    rw [dif_pos hk]; exact hv k
  have e2 : ∀ k : Fin 65, joinWide vp h ⟨63 + k.val, by have := k.isLt; omega⟩ = 0 := fun k => by
    have hk : 63 + k.val < 128 := by have := k.isLt; omega
    show (if hk : 63 + k.val < 128 then vp ⟨63 + k.val, hk⟩ else _) = 0
    rw [dif_pos hk]; exact hz k
  have e3 : ∀ k : Fin 256, joinWide vp h ⟨63 + 65 + k.val, by have := k.isLt; omega⟩ = h k := fun k => by
    have hk : ¬ 63 + 65 + k.val < 128 := by omega
    show (if hk : 63 + 65 + k.val < 128 then _ else h ⟨63 + 65 + k.val - 128, _⟩) = h k
    rw [dif_neg hk]; exact congrArg h (Fin.ext (by show 63 + 65 + k.val - 128 = k.val; omega))
  have f1 : ∀ k : Fin 63, join v h ⟨k.val, by have := k.isLt; omega⟩ = v k := fun k => by
    have hk : k.val < 63 := k.isLt
    show (if hk : k.val < 63 then v ⟨k.val, hk⟩ else _) = v k
    rw [dif_pos hk]
  have f3 : ∀ k : Fin 256, join v h ⟨63 + k.val, by have := k.isLt; omega⟩ = h k := fun k => by
    have hk : ¬ 63 + k.val < 63 := by omega
    show (if hk : 63 + k.val < 63 then _ else h ⟨63 + k.val - 63, _⟩) = h k
    rw [dif_neg hk]; exact congrArg h (Fin.ext (by show 63 + k.val - 63 = k.val; omega))
  rw [Finset.sum_eq_zero (fun (k : Fin 65) _ => by rw [e2 k, zero_mul]), add_zero]
  refine congrArg (· + b (ix1 j)) (congrArg₂ (· + ·) ?_ ?_)
  · exact Finset.sum_congr rfl fun k _ => by rw [e1 k, f1 k, hwa k j]
  · exact Finset.sum_congr rfl fun k _ => by rw [e3 k, f3 k, hwb k j]

/-- The network computed on the padded row with the widened matrices is the network. -/
theorem netWide_eq (v : Fin 63 → EReal) (vp : Fin 128 → EReal)
    (W0 : (Sh2 63 256).Idx → EReal) (W0p : (Sh2 128 256).Idx → EReal)
    (W5 : (Sh2 319 256).Idx → EReal) (W5p : (Sh2 384 256).Idx → EReal)
    (hv : ∀ k : Fin 63, vp ⟨k.val, by have := k.isLt; omega⟩ = v k)
    (hz : ∀ k : Fin 65, vp ⟨63 + k.val, by have := k.isLt; omega⟩ = 0)
    (hw0 : ∀ (k : Fin 63) (j : Fin 256), W0p (ix2 (⟨k.val, by have := k.isLt; omega⟩ : Fin 128) j) = W0 (ix2 k j))
    (hwa : ∀ (k : Fin 63) (j : Fin 256),
      W5p (ix2 (⟨k.val, by have := k.isLt; omega⟩ : Fin 384) j) = W5 (ix2 (⟨k.val, by have := k.isLt; omega⟩ : Fin 319) j))
    (hwb : ∀ (k : Fin 256) (j : Fin 256),
      W5p (ix2 (⟨63 + 65 + k.val, by have := k.isLt; omega⟩ : Fin 384) j) = W5 (ix2 (⟨63 + k.val, by have := k.isLt; omega⟩ : Fin 319) j)) :
    netWide W1 W2 W3 W4 W6 W7 b0 b1 b2 b3 b4 b5 b6 b7 Wout bout vp W0p W5p
      = net W1 W2 W3 W4 W6 W7 b0 b1 b2 b3 b4 b5 b6 b7 Wout bout v W0 W5 := by
  unfold netWide net
  rw [lin_wide_first v vp W0 W0p b0 hv hz hw0, lin_wide_join v vp _ W5 W5p b5 hv hz hwa hwb]

end Cert.Mlp

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«122581_j67826123539074_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowwise.lean ====
/-
  Arrays handled row by row.

  A two-dimensional array `a` with `R` rows *is the rows `f p` of `b`* (`RowsOf f a b`) when
  `a (p, c) = b (f p, c)` for every row `p` and column `c`; a block of consecutive rows of a taller array is the
  example to have in mind (`f p = first + p`). Every operation that treats each row on its own carries the relation
  from its operands to its result:

  * a unit-stride slice of columns `[o, o + w)` (`RowsOf.slice`);
  * the broadcast of a one-column array along the columns, the shorter array's in the vector form
    (`broadcastTo`) and the taller one's in the host's form (`broadcastInDim … ![0, 1]`) (`RowsOf.bcast`);
  * a pointwise product (`RowsOf.mulf`);
  * a concatenation of pieces along the columns, through `concatCols_ix2`: at column `k` inside the span
    `[pre, pre + w)` of piece `n`, the concatenation is that piece at column `k - pre` of the same row.

  Each operation is first read at an index `(p, c)` given by its two coordinates (`slice_ix2`, `bcastTo_ix2`,
  `bcastInDim_ix2`), in any element type.
-/
import Idealize.ShloMosaic.Lib.Pipeline.Value
import Idealize.ShloMosaic.Lib.ValueIdx

noncomputable section

namespace Cert.Lib.Rowwise

open Idealize.ShloMosaic Idealize.ShloMosaic.ValueIdx

variable {α : Type}

/-- The shape of an array of `R` rows and `w` columns. -/
abbrev Sh2 (R w : Nat) : Shape := ⟨2, ![R, w]⟩

/-- `a` is the rows `f p` of `b`: entry `(p, c)` of `a` is entry `(f p, c)` of `b`. -/
def RowsOf {R R' w : Nat} (f : Fin R → Fin R') (a : (Sh2 R w).Idx → α) (b : (Sh2 R' w).Idx → α) : Prop :=
  ∀ (p : Fin R) (c : Fin w), a (ix2 p c) = b (ix2 (f p) c)

/-- Columns `[o, o + w)` of `a`, read at `(p, c)`: `a` at `(p, o + c)`. -/
theorem slice_ix2 {R W w : Nat} (o : Nat) (a : (Sh2 R W).Idx → α) (h : (Sh2 R W).Slices ![0, o] (Sh2 R w))
    (p : Fin R) (c : Fin w) (hc : o + c.val < W) :
    extractStridedSlice (Sh2 R w) ![0, o] a h (ix2 p c) = a (ix2 p ⟨o + c.val, hc⟩) :=
  extractStridedSlice_apply ![0, o] a h (ix2 p c) (ix2 p ⟨o + c.val, hc⟩) (fun d => match d with
    | ⟨0, _⟩ => by show p.val = 0 + p.val; omega
    | ⟨1, _⟩ => rfl)

/-- A one-column array spread over `w` columns (the vector form), read at `(p, c)`: its entry in row `p`. -/
theorem bcastTo_ix2 {R w : Nat} (a : (Sh2 R 1).Idx → α) (h : (Sh2 R 1).Broadcasts (Sh2 R w)) (p : Fin R) (c : Fin w) :
    broadcastTo (Sh2 R w) a h (ix2 p c) = a (ix2 p 0) :=
  broadcastTo_apply a h (ix2 p c) (ix2 p 0) (fun d => match d with
    | ⟨0, _⟩ => by
        show p.val = if R = 1 then 0 else p.val
        split
        · have := p.isLt; omega
        · rfl
    | ⟨1, _⟩ => rfl)

/-- A one-column array spread over `w` columns (the host's form, both axes kept), read at `(p, c)`: its entry in
    row `p`. -/
theorem bcastInDim_ix2 {R w : Nat} (a : (Sh2 R 1).Idx → α) (h : (Sh2 R 1).BroadcastsInDim (Sh2 R w) ![0, 1])
    (p : Fin R) (c : Fin w) :
    broadcastInDim (Sh2 R w) ![0, 1] h a (ix2 p c) = a (ix2 p 0) :=
  broadcastInDim_apply ![0, 1] h a (ix2 p c) (ix2 p 0) (fun d => match d with
    | ⟨0, _⟩ => by
        show p.val = if R = 1 then 0 else p.val
        split
        · have := p.isLt; omega
        · rfl
    | ⟨1, _⟩ => rfl)

/-- A slice of columns acts row by row. -/
theorem RowsOf.slice {R R' W w : Nat} {f : Fin R → Fin R'} {a : (Sh2 R W).Idx → α} {b : (Sh2 R' W).Idx → α}
    (hab : RowsOf f a b) (o : Nat) (hoW : o + w ≤ W)
    (h : (Sh2 R W).Slices ![0, o] (Sh2 R w)) (h' : (Sh2 R' W).Slices ![0, o] (Sh2 R' w)) :
    RowsOf f (extractStridedSlice (Sh2 R w) ![0, o] a h) (extractStridedSlice (Sh2 R' w) ![0, o] b h') := by
  intro p c
  have hc : o + c.val < W := by have := c.isLt; omega
  rw [slice_ix2 o a h p c hc, slice_ix2 o b h' (f p) c hc]
  exact hab p _

/-- Spreading a column over the columns acts row by row (the vector form on the one side, the host's on the other). -/
theorem RowsOf.bcast {R R' w : Nat} {f : Fin R → Fin R'} {a : (Sh2 R 1).Idx → α} {b : (Sh2 R' 1).Idx → α}
    (hab : RowsOf f a b) (h : (Sh2 R 1).Broadcasts (Sh2 R w)) (h' : (Sh2 R' 1).BroadcastsInDim (Sh2 R' w) ![0, 1]) :
    RowsOf f (broadcastTo (Sh2 R w) a h) (broadcastInDim (Sh2 R' w) ![0, 1] h' b) := by
  intro p c
  rw [bcastTo_ix2, bcastInDim_ix2]
  exact hab p 0

/-- A pointwise product acts row by row. -/
theorem RowsOf.mulf {F : FTy → Type} [FloatOps F] {φ : FTy} {R R' w : Nat} {f : Fin R → Fin R'}
    {a a' : FVec F (Sh2 R w) φ} {b b' : FVec F (Sh2 R' w) φ}
    (h : RowsOf f a b) (h' : RowsOf f a' b') : RowsOf f (Idealize.ShloMosaic.mulf a a') (Idealize.ShloMosaic.mulf b b') := by
  intro p c
  show FloatOps.mulf (a _) (a' _) = FloatOps.mulf (b _) (b' _)
  rw [h p c, h' p c]

/-- The widths of the first `n` pieces of a concatenation along the columns add up as the first `n` entries of
    the list of widths. -/
theorem widths_take_sum {R C : Nat} : ∀ (xs : List ((s : Shape) × (s.Idx → α))) (ws : List Nat),
    xs.map (·.1) = ws.map (fun w => Sh2 R w) → ∀ n : Nat,
    (((xs.take n).map (·.1)).map fun s =>
      if h : s.rank = (Sh2 R C).rank then s.size ((1 : Fin (Sh2 R C).rank).cast h.symm) else 0).sum = (ws.take n).sum
  | _, _, _, 0 => by simp
  | [], [], _, _ + 1 => by simp
  | [], _ :: _, h, _ => by simp at h
  | _ :: _, [], h, _ => by simp at h
  | x :: xs, w :: ws, h, n + 1 => by
    simp only [List.map_cons, List.cons.injEq] at h
    simp only [List.take_succ_cons, List.map_cons, List.sum_cons]
    rw [widths_take_sum xs ws h.2 n, h.1]
    show (if h : (2 : ℕ) = 2 then (![R, w] : Fin 2 → ℕ) ((1 : Fin 2).cast h.symm) else 0) + _ = _
    rw [dif_pos rfl]
    rfl

/-- A concatenation along the columns of pieces of widths `ws`, read at `(p, k)` with `k` inside the span
    `[pre, pre + w)` of piece `n` (`pre` the sum of the widths before it): that piece at `(p, k - pre)`. -/
theorem concatCols_ix2 {R C : Nat} (xs : List ((s : Shape) × (s.Idx → α)))
    (h : Shape.Concatenates (xs.map (·.1)) (Sh2 R C) 1)
    (ws : List Nat) (hws : xs.map (·.1) = ws.map (fun w => Sh2 R w))
    (n : Nat) (hn : n < xs.length) (w : Nat) (x : (Sh2 R w).Idx → α) (hx : xs[n] = ⟨Sh2 R w, x⟩)
    (pre : Nat) (hpre : (ws.take n).sum = pre)
    (p : Fin R) (k : Fin C) (hlo : pre ≤ k.val) (hhi : k.val < pre + w) :
    concatenate (Sh2 R C) 1 xs h (ix2 p k) = x (ix2 p ⟨k.val - pre, by omega⟩) :=
  concatenate_apply_piece 1 xs h (ix2 p k) n hn (Sh2 R w) x hx rfl pre
    ((widths_take_sum (C := C) xs ws hws n).trans hpre) (ix2 p ⟨k.val - pre, by omega⟩)
    (fun b hb => match b, hb with
      | ⟨0, _⟩, _ => rfl
      | ⟨1, _⟩, hb => absurd rfl hb)
    (by show pre + (k.val - pre) = k.val; omega)

end Cert.Lib.Rowwise

end
-- ==== Proof.Layers.lean ====
/-
  One layer of the network as each program spells it, read one row at a time on the extended reals.

  A layer takes an array `a` of R rows and K columns, a K × N matrix `w` and a bias vector `b` of N entries to
  the array whose row `r` is `lin (row a r) w b`, rectified or not. The reference spells the product as a
  `dot_general`, the bias as the vector given a leading unit axis and repeated down the rows (two
  `broadcast_in_dim`), and the rectifier as the maximum with a scalar zero broadcast to the whole shape. The
  kernel spells the product as a matrix-unit product into a zero accumulator, the bias as a shape cast to one
  row broadcast down the rows, and the rectifier as the maximum with a splat zero. Both contractions are the
  plain sum over the shared axis of left entry × right entry; nothing here needs an entry to be finite.

  The skip's concatenation along the columns, in either width, lays one row in front of another.
-/
import proofs.«122581_j67826123539074_2_alg».proof.Proof.Net
import proofs.«122581_j67826123539074_2_alg».proof.Proof.LibRowsCols
import proofs.«122581_j67826123539074_2_alg».proof.Proof.LibColumnLayout
import proofs.«122581_j67826123539074_2_alg».proof.Proof.LibRowwise
import Idealize.ShloMosaic.Lib.Pipeline.Value
import Idealize.ShloMosaic.Lib.ValueLayout

noncomputable section

namespace Cert.Mlp

open Idealize.ShloMosaic Idealize.ShloMosaic.ValueIdx Cert.Dense

variable {R K N : Nat} {d : DotDims (Sh2 R K) (Sh2 K N) (Sh2 R N)}

/-! ## The reference's spelling -/

/-- A bias vector given a leading unit axis and repeated down the rows reads, at (r, j), the vector at j. -/
theorem hostBias_apply (h1 : (Sh1 N).BroadcastsInDim (Sh2 1 N) (![1] : Fin 1 → Fin (Sh2 1 N).rank))
    (h2 : (Sh2 1 N).BroadcastsInDim (Sh2 R N) (![0, 1] : Fin 2 → Fin (Sh2 R N).rank))
    (b : (Sh1 N).Idx → EReal) (r : Fin R) (j : Fin N) :
    broadcastInDim (Sh2 R N) ![0, 1] h2 (broadcastInDim (Sh2 1 N) ![1] h1 b) (ix2 r j) = b (ix1 j) := by
  refine (broadcastInDim_apply ![0, 1] h2 _ (ix2 r j) (ix2 (0 : Fin 1) j) (fun a => ?_)).trans ?_
  · match a with
    | ⟨0, _⟩ => rfl
    | ⟨1, _⟩ =>
      show j.val = if N = 1 then 0 else j.val
      split
      · have := j.isLt; omega
      · rfl
  · refine broadcastInDim_apply ![1] h1 b (ix2 (0 : Fin 1) j) (ix1 j) (fun a => ?_)
    match a with
    | ⟨0, _⟩ =>
      show j.val = if N = 1 then 0 else j.val
      split
      · have := j.isLt; omega
      · rfl

/-- The reference's linear layer, row `r`. -/
theorem host_affine_row (hd : RowsCols d) (h1 : (Sh1 N).BroadcastsInDim (Sh2 1 N) (![1] : Fin 1 → Fin (Sh2 1 N).rank))
    (h2 : (Sh2 1 N).BroadcastsInDim (Sh2 R N) (![0, 1] : Fin 2 → Fin (Sh2 R N).rank))
    (a : FVec Ideal (Sh2 R K) .f32) (w : FVec Ideal (Sh2 K N) .f32) (b : FVec Ideal (Sh1 N) .f32) (r : Fin R) :
    row (addf (Host.dotGeneral d none a w) (broadcastInDim (Sh2 R N) ![0, 1] h2 (broadcastInDim (Sh2 1 N) ![1] h1 b))) r
      = lin (row a r) w b := by
  funext j
  show Host.dotGeneral d none a w (ix2 r j) + broadcastInDim (Sh2 R N) ![0, 1] h2 (broadcastInDim (Sh2 1 N) ![1] h1 b) (ix2 r j)
    = ∑ k : Fin K, a (ix2 r k) * w (ix2 k j) + b (ix1 j)
  rw [dotGeneral_apply hd none a w (ix2 r j), hostBias_apply h1 h2 b r j]
  rfl

/-- The reference's rectified layer, row `r`. -/
theorem host_layer_row (hd : RowsCols d) (h1 : (Sh1 N).BroadcastsInDim (Sh2 1 N) (![1] : Fin 1 → Fin (Sh2 1 N).rank))
    (h2 : (Sh2 1 N).BroadcastsInDim (Sh2 R N) (![0, 1] : Fin 2 → Fin (Sh2 R N).rank))
    (h0 : (⟨0, ![]⟩ : Shape).BroadcastsInDim (Sh2 R N) (![] : Fin 0 → Fin (Sh2 R N).rank))
    (a : FVec Ideal (Sh2 R K) .f32) (w : FVec Ideal (Sh2 K N) .f32) (b : FVec Ideal (Sh1 N) .f32) (r : Fin R) :
    row (maximumf (addf (Host.dotGeneral d none a w) (broadcastInDim (Sh2 R N) ![0, 1] h2 (broadcastInDim (Sh2 1 N) ![1] h1 b)))
        (broadcastInDim (Sh2 R N) ![] h0 (constant (F := Ideal) (⟨0, ![]⟩ : Shape) .f32 0x00000000#32))) r
      = act (lin (row a r) w b) := by
  funext j
  show max ((addf (Host.dotGeneral d none a w) (broadcastInDim (Sh2 R N) ![0, 1] h2 (broadcastInDim (Sh2 1 N) ![1] h1 b))) (ix2 r j))
      (broadcastInDim (Sh2 R N) ![] h0 (constant (F := Ideal) (⟨0, ![]⟩ : Shape) .f32 0x00000000#32) (ix2 r j))
    = max (lin (row a r) w b j) zeroWord
  have e1 := congrFun (host_affine_row hd h1 h2 a w b r) j
  have e2 : broadcastInDim (Sh2 R N) ![] h0 (constant (F := Ideal) (⟨0, ![]⟩ : Shape) .f32 0x00000000#32) (ix2 r j) = zeroWord :=
    broadcastInDim_apply ![] h0 _ (ix2 r j) ix0 (fun a => a.elim0)
  rw [e2]
  exact congrArg (max · zeroWord) e1

/-! ## The kernel's spelling -/

/-- The kernel's product into the zero accumulator at (p, j): the sum over k of row p's entry k times w (k, j). -/
theorem kernel_mat_apply (hd : RowsCols d) (prec : Option ContractPrecision)
    (a : FVec Ideal (Sh2 R K) .f32) (w : FVec Ideal (Sh2 K N) .f32) (p : Fin R) (j : Fin N) :
    matmul d prec a w (constant (F := Ideal) (Sh2 R N) .f32 0x00000000#32) (ix2 p j) = ∑ k : Fin K, row a p k * w (ix2 k j) :=
  matmul_zero_apply hd prec a w (ix2 p j)

/-- The kernel's linear layer, row `p`. -/
theorem kernel_affine_row (hd : RowsCols d) (prec : Option ContractPrecision) (hc : (Sh1 N).ShapeCasts (Sh2 1 N))
    (hb : (Sh2 1 N).Broadcasts (Sh2 R N))
    (a : FVec Ideal (Sh2 R K) .f32) (w : FVec Ideal (Sh2 K N) .f32) (b : FVec Ideal (Sh1 N) .f32) (p : Fin R) :
    row (addf (matmul d prec a w (constant (F := Ideal) (Sh2 R N) .f32 0x00000000#32))
        (broadcastTo (Sh2 R N) (shapeCast (Sh2 1 N) b hc) hb)) p = lin (row a p) w b := by
  funext j
  show matmul d prec a w (constant (F := Ideal) (Sh2 R N) .f32 0x00000000#32) (ix2 p j)
      + broadcastTo (Sh2 R N) (shapeCast (Sh2 1 N) b hc) hb (ix2 p j) = ∑ k : Fin K, row a p k * w (ix2 k j) + b (ix1 j)
  rw [kernel_mat_apply hd prec a w p j, ColumnLayout.row_broadcast_apply b hc hb p j]

/-- The kernel's rectified layer, row `p`. -/
theorem kernel_layer_row (hd : RowsCols d) (prec : Option ContractPrecision) (hc : (Sh1 N).ShapeCasts (Sh2 1 N))
    (hb : (Sh2 1 N).Broadcasts (Sh2 R N))
    (a : FVec Ideal (Sh2 R K) .f32) (w : FVec Ideal (Sh2 K N) .f32) (b : FVec Ideal (Sh1 N) .f32) (p : Fin R) :
    row (maximumf (addf (matmul d prec a w (constant (F := Ideal) (Sh2 R N) .f32 0x00000000#32))
        (broadcastTo (Sh2 R N) (shapeCast (Sh2 1 N) b hc) hb)) (broadcast (Sh2 R N) (Scalar.ofBits (F := Ideal) .f32 0x00000000#32))) p
      = act (lin (row a p) w b) := by
  funext j
  exact congrArg (max · zeroWord) (congrFun (kernel_affine_row hd prec hc hb a w b p) j)

/-! ## The skip's concatenation -/

/-- 63 columns in front of 256, row `r`. -/
theorem concat_row (h : Shape.Concatenates [Sh2 R 63, Sh2 R 256] (Sh2 R 319) 1)
    (a : (Sh2 R 63).Idx → EReal) (g : (Sh2 R 256).Idx → EReal) (r : Fin R) :
    row (concatenate (Sh2 R 319) 1 [⟨Sh2 R 63, a⟩, ⟨Sh2 R 256, g⟩] h) r = join (row a r) (row g r) := by
  funext k
  show concatenate (Sh2 R 319) 1 [⟨Sh2 R 63, a⟩, ⟨Sh2 R 256, g⟩] h (ix2 r k)
    = if hk : k.val < 63 then a (ix2 r ⟨k.val, hk⟩) else g (ix2 r ⟨k.val - 63, by have := k.isLt; omega⟩)
  by_cases hk : k.val < 63
  · rw [dif_pos hk]
    exact Cert.Lib.Rowwise.concatCols_ix2 [⟨Sh2 R 63, a⟩, ⟨Sh2 R 256, g⟩] h [63, 256] rfl 0 Nat.zero_lt_two 63 a rfl 0 rfl r k
      (Nat.zero_le _) (by omega)
  · rw [dif_neg hk]
    exact Cert.Lib.Rowwise.concatCols_ix2 [⟨Sh2 R 63, a⟩, ⟨Sh2 R 256, g⟩] h [63, 256] rfl 1 Nat.one_lt_two 256 g rfl 63 rfl r k
      (by omega) (by have := k.isLt; omega)

/-- 128 columns in front of 256, row `p`. -/
theorem concat_wide_row (h : Shape.Concatenates [Sh2 R 128, Sh2 R 256] (Sh2 R 384) 1)
    (a : (Sh2 R 128).Idx → EReal) (g : (Sh2 R 256).Idx → EReal) (p : Fin R) :
    row (concatenate (Sh2 R 384) 1 [⟨Sh2 R 128, a⟩, ⟨Sh2 R 256, g⟩] h) p = joinWide (row a p) (row g p) := by
  funext k
  show concatenate (Sh2 R 384) 1 [⟨Sh2 R 128, a⟩, ⟨Sh2 R 256, g⟩] h (ix2 p k)
    = if hk : k.val < 128 then a (ix2 p ⟨k.val, hk⟩) else g (ix2 p ⟨k.val - 128, by have := k.isLt; omega⟩)
  by_cases hk : k.val < 128
  · rw [dif_pos hk]
    exact Cert.Lib.Rowwise.concatCols_ix2 [⟨Sh2 R 128, a⟩, ⟨Sh2 R 256, g⟩] h [128, 256] rfl 0 Nat.zero_lt_two 128 a rfl 0 rfl p k
      (Nat.zero_le _) (by omega)
  · rw [dif_neg hk]
    exact Cert.Lib.Rowwise.concatCols_ix2 [⟨Sh2 R 128, a⟩, ⟨Sh2 R 256, g⟩] h [128, 256] rfl 1 Nat.one_lt_two 256 g rfl 128 rfl p k
      (by omega) (by have := k.isLt; omega)

end Cert.Mlp

end
-- ==== Proof.Body.lean ====
/-
  What the kernel's body leaves in its output block.

  The body loads a block of 4096 rows of the padded input (128 columns), the eighteen weight and bias arrays
  (the first matrix widened to 128 rows, the sixth to 384), and stores one block of 4096 × 4: five rectified
  layers, the block laid in front of the fifth layer's output, three more rectified layers, and a last product
  with bias. Every operation acts on each row by itself, so row `p` of the stored block is the wide network
  (`netWide`) of row `p` of the input block.
-/
import proofs.«122581_j67826123539074_2_alg».proof.Proof.Gen.KernelIdeal.Value
import proofs.«122581_j67826123539074_2_alg».proof.Proof.Layers

noncomputable section

namespace Cert.Mlp.Kernel

open Idealize.ShloMosaic Idealize.ShloMosaic.ValueIdx Cert.Dense Cert.Mlp
open Cert.KernelIdeal Cert.KernelIdeal.Gen

/-- Each of the kernel's four contractions is rows times columns. -/
theorem first : RowsCols dot_S4096x128_S128x256_S4096x256_1_0_0_1_n_n :=
  ⟨rfl, rfl, fun _ _ => rfl, fun _ _ => rfl, fun _ _ => rfl, fun _ _ => rfl⟩
theorem mid : RowsCols dot_S4096x256_S256x256_S4096x256_1_0_0_1_n_n :=
  ⟨rfl, rfl, fun _ _ => rfl, fun _ _ => rfl, fun _ _ => rfl, fun _ _ => rfl⟩
theorem skip : RowsCols dot_S4096x384_S384x256_S4096x256_1_0_0_1_n_n :=
  ⟨rfl, rfl, fun _ _ => rfl, fun _ _ => rfl, fun _ _ => rfl, fun _ _ => rfl⟩
theorem out : RowsCols dot_S4096x256_S256x4_S4096x4_1_0_0_1_n_n :=
  ⟨rfl, rfl, fun _ _ => rfl, fun _ _ => rfl, fun _ _ => rfl, fun _ _ => rfl⟩

/-- A rectified layer as the kernel spells it: the product into the zero accumulator, plus the bias as one row
    broadcast down the rows, and the maximum with a splat zero. -/
def kLayer {R K N : Nat} (d : DotDims (Sh2 R K) (Sh2 K N) (Sh2 R N)) (hc : (Sh1 N).ShapeCasts (Sh2 1 N))
    (hb : (Sh2 1 N).Broadcasts (Sh2 R N)) (a : FVec Ideal (Sh2 R K) .f32) (w : FVec Ideal (Sh2 K N) .f32)
    (b : FVec Ideal (Sh1 N) .f32) : FVec Ideal (Sh2 R N) .f32 :=
  maximumf (addf (matmul d (some .fp32) a w (constant (F := Ideal) (Sh2 R N) .f32 0x00000000#32))
    (broadcastTo (Sh2 R N) (shapeCast (Sh2 1 N) b hc) hb)) (broadcast (Sh2 R N) (Scalar.ofBits (F := Ideal) .f32 0x00000000#32))

/-- Row `p` of a rectified layer is the rectified linear layer of row `p`. -/
theorem kLayer_row {R K N : Nat} {d : DotDims (Sh2 R K) (Sh2 K N) (Sh2 R N)} (hd : RowsCols d) (hc : (Sh1 N).ShapeCasts (Sh2 1 N))
    (hb : (Sh2 1 N).Broadcasts (Sh2 R N)) (a : FVec Ideal (Sh2 R K) .f32) (w : FVec Ideal (Sh2 K N) .f32)
    (b : FVec Ideal (Sh1 N) .f32) (p : Fin R) : row (kLayer d hc hb a w b) p = act (lin (row a p) w b) :=
  kernel_layer_row hd (some .fp32) hc hb a w b p

/-- The stored value as a composition of layers (the body's operations, in order). -/
theorem stored_eq (x0 : FVec Ideal S4096x128 .f32) (x1 : FVec Ideal S128x256 .f32) (x2 : FVec Ideal S256 .f32) (x3 : FVec Ideal S256x256 .f32) (x4 : FVec Ideal S256 .f32) (x5 : FVec Ideal S256x256 .f32) (x6 : FVec Ideal S256 .f32) (x7 : FVec Ideal S256x256 .f32) (x8 : FVec Ideal S256 .f32) (x9 : FVec Ideal S256x256 .f32) (x10 : FVec Ideal S256 .f32) (x11 : FVec Ideal S384x256 .f32) (x12 : FVec Ideal S256 .f32) (x13 : FVec Ideal S256x256 .f32) (x14 : FVec Ideal S256 .f32) (x15 : FVec Ideal S256x256 .f32) (x16 : FVec Ideal S256 .f32) (x17 : FVec Ideal S256x4 .f32) (x18 : FVec Ideal S4 .f32) :
    k0_pay1 (F := Ideal) (k0_pay4 (k0_pay2 x0) (k0_pay3 x0 x1 x2 x3 x4 x5 x6 x7 x8) x9 x10 x11 x12 x13 x14 x15 x16 x17) (k0_pay5 x18)
      = addf (matmul dot_S4096x256_S256x4_S4096x4_1_0_0_1_n_n (some .fp32) (kLayer dot_S4096x256_S256x256_S4096x256_1_0_0_1_n_n shapeCasts_S256_S1x256 broadcasts_S1x256_S4096x256 (kLayer dot_S4096x256_S256x256_S4096x256_1_0_0_1_n_n shapeCasts_S256_S1x256 broadcasts_S1x256_S4096x256 (kLayer dot_S4096x384_S384x256_S4096x256_1_0_0_1_n_n shapeCasts_S256_S1x256 broadcasts_S1x256_S4096x256 (concatenate S4096x384 1 [⟨S4096x128, (shapeCast S4096x128 x0 shapeCasts_S4096x128_S4096x128)⟩, ⟨S4096x256, (kLayer dot_S4096x256_S256x256_S4096x256_1_0_0_1_n_n shapeCasts_S256_S1x256 broadcasts_S1x256_S4096x256 (kLayer dot_S4096x256_S256x256_S4096x256_1_0_0_1_n_n shapeCasts_S256_S1x256 broadcasts_S1x256_S4096x256 (kLayer dot_S4096x256_S256x256_S4096x256_1_0_0_1_n_n shapeCasts_S256_S1x256 broadcasts_S1x256_S4096x256 (kLayer dot_S4096x256_S256x256_S4096x256_1_0_0_1_n_n shapeCasts_S256_S1x256 broadcasts_S1x256_S4096x256 (kLayer dot_S4096x128_S128x256_S4096x256_1_0_0_1_n_n shapeCasts_S256_S1x256 broadcasts_S1x256_S4096x256 (shapeCast S4096x128 x0 shapeCasts_S4096x128_S4096x128) (shapeCast S128x256 x1 shapeCasts_S128x256_S128x256) x2) x3 x4) x5 x6) x7 x8) x9 x10)⟩] concatenates_S4096x128_S4096x256_S4096x384_d1) (shapeCast S384x256 x11 shapeCasts_S384x256_S384x256) x12) x13 x14) x15 x16) x17 (constant (F := Ideal) S4096x4 .f32 0x00000000#32)) (broadcastTo S4096x4 (shapeCast S1x4 x18 shapeCasts_S4_S1x4) broadcasts_S1x4_S4096x4) := rfl

theorem hz2 : (![0, 0] : Fin 2 → Nat) = fun _ => 0 := funext fun a => by fin_cases a <;> rfl
theorem hz1 : (![0] : Fin 1 → Nat) = fun _ => 0 := funext fun a => by fin_cases a; rfl

/-- Row `p` of the block the body stores is the wide network of row `p` of the input block. -/
theorem out_row (x0 : FVec Ideal S4096x128 .f32) (x1 : FVec Ideal S128x256 .f32) (x2 : FVec Ideal S256 .f32) (x3 : FVec Ideal S256x256 .f32) (x4 : FVec Ideal S256 .f32) (x5 : FVec Ideal S256x256 .f32) (x6 : FVec Ideal S256 .f32) (x7 : FVec Ideal S256x256 .f32) (x8 : FVec Ideal S256 .f32) (x9 : FVec Ideal S256x256 .f32) (x10 : FVec Ideal S256 .f32) (x11 : FVec Ideal S384x256 .f32) (x12 : FVec Ideal S256 .f32) (x13 : FVec Ideal S256x256 .f32) (x14 : FVec Ideal S256 .f32) (x15 : FVec Ideal S256x256 .f32) (x16 : FVec Ideal S256 .f32) (x17 : FVec Ideal S256x4 .f32) (x18 : FVec Ideal S4 .f32) (p : Fin 4096) :
    row (out0_19 (F := Ideal) x0 x1 x2 x3 x4 x5 x6 x7 x8 x9 x10 x11 x12 x13 x14 x15 x16 x17 x18) p = netWide x3 x5 x7 x9 x13 x15 x2 x4 x6 x8 x10 x12 x14 x16 x17 x18 (row x0 p) x1 x11 := by
  unfold out0_19
  rw [View.canon_unit_zero hz2]
  simp only [View.ld_unit_zero (S := S4096x128) hz2, View.ld_unit_zero (S := S128x256) hz2, View.ld_unit_zero (S := S256x256) hz2,
    View.ld_unit_zero (S := S384x256) hz2, View.ld_unit_zero (S := S256x4) hz2, View.ld_unit_zero (S := S256) hz1,
    View.ld_unit_zero (S := S4) hz1]
  rw [stored_eq]
  simp only [shapeCast_self]
  rw [kernel_affine_row out (some .fp32) shapeCasts_S4_S1x4 broadcasts_S1x4_S4096x4, kLayer_row mid, kLayer_row mid, kLayer_row skip,
    concat_wide_row, kLayer_row mid, kLayer_row mid, kLayer_row mid, kLayer_row mid, kLayer_row first]
  have e0 : shapeCast S4096x128 x0 shapeCasts_S4096x128_S4096x128 = x0 := shapeCast_self x0 _
  have e1 : shapeCast S128x256 x1 shapeCasts_S128x256_S128x256 = x1 := shapeCast_self x1 _
  rw [e0, e1]
  rfl

/-- Entry `k` of row `r` of an array is the array's entry (r, k). -/
theorem row_apply {R K : Nat} (a : (Sh2 R K).Idx → EReal) (r : Fin R) (k : Fin K) : row a r k = a (ix2 r k) := rfl

/-- The same at an entry: entry (p, o) of the stored block is entry o of the wide network of row p of the input block. -/
theorem out_apply (x0 : FVec Ideal S4096x128 .f32) (x1 : FVec Ideal S128x256 .f32) (x2 : FVec Ideal S256 .f32) (x3 : FVec Ideal S256x256 .f32) (x4 : FVec Ideal S256 .f32) (x5 : FVec Ideal S256x256 .f32) (x6 : FVec Ideal S256 .f32) (x7 : FVec Ideal S256x256 .f32) (x8 : FVec Ideal S256 .f32) (x9 : FVec Ideal S256x256 .f32) (x10 : FVec Ideal S256 .f32) (x11 : FVec Ideal S384x256 .f32) (x12 : FVec Ideal S256 .f32) (x13 : FVec Ideal S256x256 .f32) (x14 : FVec Ideal S256 .f32) (x15 : FVec Ideal S256x256 .f32) (x16 : FVec Ideal S256 .f32) (x17 : FVec Ideal S256x4 .f32) (x18 : FVec Ideal S4 .f32) (p : Fin 4096) (o : Fin 4) :
    out0_19 (F := Ideal) x0 x1 x2 x3 x4 x5 x6 x7 x8 x9 x10 x11 x12 x13 x14 x15 x16 x17 x18 (ix2 p o) = netWide x3 x5 x7 x9 x13 x15 x2 x4 x6 x8 x10 x12 x14 x16 x17 x18 (row x0 p) x1 x11 o :=
  (row_apply (out0_19 (F := Ideal) x0 x1 x2 x3 x4 x5 x6 x7 x8 x9 x10 x11 x12 x13 x14 x15 x16 x17 x18) p o).symm.trans (congrFun (out_row x0 x1 x2 x3 x4 x5 x6 x7 x8 x9 x10 x11 x12 x13 x14 x15 x16 x17 x18 p) o)

end Cert.Mlp.Kernel

end
-- ==== Proof.Rows.lean ====
/-
  The network applied to every row of the input array.

  The input array has 262144 rows and 90 columns, of which only the first 63 are read: row `r` of the result
  (4 entries) is the network of the first 63 entries of row `r` of the input.
-/
import proofs.«122581_j67826123539074_2_alg».proof.Proof.Net

noncomputable section

namespace Cert.Mlp

open Idealize.ShloMosaic Idealize.ShloMosaic.ValueIdx

/-- The first 63 entries of row `r` of the input array. -/
def points (x : (Sh2 262144 90).Idx → EReal) (r : Fin 262144) : Fin 63 → EReal :=
  fun k => x (ix2 r (⟨k.val, by have := k.isLt; omega⟩ : Fin 90))

/-- The result array: entry (r, o) is entry o of the network of row r's first 63 entries. -/
def netRows (W1 W2 W3 W4 W6 W7 : (Sh2 256 256).Idx → EReal) (b0 b1 b2 b3 b4 b5 b6 b7 : (Sh1 256).Idx → EReal)
    (Wout : (Sh2 256 4).Idx → EReal) (bout : (Sh1 4).Idx → EReal)
    (x : (Sh2 262144 90).Idx → EReal) (W0 : (Sh2 63 256).Idx → EReal) (W5 : (Sh2 319 256).Idx → EReal) :
    (Sh2 262144 4).Idx → EReal :=
  fun i => net W1 W2 W3 W4 W6 W7 b0 b1 b2 b3 b4 b5 b6 b7 Wout bout (points x (i 0 : Fin 262144)) W0 W5 (i 1 : Fin 4)

end Cert.Mlp

end
-- ==== Proof.Padding.lean ====
/-
  The three arrays the kernel's program prepares before the launch, and why the wide network on them is the network.

  * The padded input: the first 63 columns of the input array, then 65 columns of zeros (128 columns).
  * The widened first matrix: the 63 rows of the first weight matrix, then 65 rows of zeros (128 rows).
  * The widened sixth matrix: the first 63 rows of the sixth weight matrix, 65 rows of zeros, then its last 256
    rows (63 + 65 + 256 = 384 rows).

  The padding value is the integer zero converted to a float: the real number zero. So row `r` of the padded
  input is row `r`'s first 63 entries followed by zeros, the extra rows of the two matrices only ever multiply
  those zeros, and the wide network of that row with the widened matrices is the network of the 63 entries.
-/
import proofs.«122581_j67826123539074_2_alg».proof.Proof.Gen.KernelIdeal
import proofs.«122581_j67826123539074_2_alg».proof.Proof.Rows
import Idealize.ShloMosaic.Lib.KernelVsHost
import Idealize.ShloMosaic.Lib.Pipeline.Value

noncomputable section

namespace Cert.Mlp.Kernel

open Idealize.ShloMosaic Idealize.ShloMosaic.ValueIdx Cert.Mlp
open Cert.KernelIdeal Cert.KernelIdeal.Gen

/-- The input's first 63 columns followed by 65 columns of the padding value. -/
def paddedInput (x : FVec Ideal S262144x90 .f32) : FVec Ideal S262144x128 .f32 :=
  pad S262144x128 ![0, 0] ![0, 65] ![0, 0] (extractStridedSlice S262144x63 ![0, 0] x slices_S262144x90_S262144x63_0_0)
    (sitofp (F := Ideal) .f32 (constantI S_ 32 0#32)) pads_S262144x63_S262144x128_000_0650 h_S_

/-- The first weight matrix followed by 65 rows of the padding value. -/
def widenedFirst (W0 : FVec Ideal S63x256 .f32) : FVec Ideal S128x256 .f32 :=
  pad S128x256 ![0, 0] ![65, 0] ![0, 0] W0 (sitofp (F := Ideal) .f32 (constantI S_ 32 0#32)) pads_S63x256_S128x256_0650_000 h_S_

/-- The first 63 rows of the sixth weight matrix followed by 65 rows of the padding value. -/
def sixthTop (W5 : FVec Ideal S319x256 .f32) : FVec Ideal S128x256 .f32 :=
  pad S128x256 ![0, 0] ![65, 0] ![0, 0] (extractStridedSlice S63x256 ![0, 0] W5 slices_S319x256_S63x256_0_0)
    (sitofp (F := Ideal) .f32 (constantI S_ 32 0#32)) pads_S63x256_S128x256_0650_000 h_S_

/-- The last 256 rows of the sixth weight matrix. -/
def sixthBottom (W5 : FVec Ideal S319x256 .f32) : FVec Ideal S256x256 .f32 :=
  extractStridedSlice S256x256 ![63, 0] W5 slices_S319x256_S256x256_63_0

/-- The sixth weight matrix with 65 rows of the padding value between its first 63 rows and its last 256. -/
def widenedSixth (W5 : FVec Ideal S319x256 .f32) : FVec Ideal S384x256 .f32 :=
  concatenate S384x256 0 [⟨S128x256, sixthTop W5⟩, ⟨S256x256, sixthBottom W5⟩] concatenates_S128x256_S256x256_S384x256_d0

/-- The padding value is zero. -/
theorem padValue_eq (i : S_.Idx) : (sitofp (F := Ideal) .f32 (constantI S_ 32 0#32)) i = 0 := sitofp_zero

/-- The padded input at a column below 63 is the input there. -/
theorem paddedInput_inside (x : FVec Ideal S262144x90 .f32) (r : Fin 262144) (k : Fin 63) :
    paddedInput x (ix2 r (⟨k.val, by have := k.isLt; omega⟩ : Fin 128)) = points x r k := by
  refine (pad_apply_of_inside ![0, 0] ![0, 65] ![0, 0] _ _ pads_S262144x63_S262144x128_000_0650 h_S_
    (ix2 r (⟨k.val, by have := k.isLt; omega⟩ : Fin 128)) (ix2 r k) (fun a => ?_)).trans ?_
  · match a with
    | ⟨0, _⟩ => show r.val = 0 + r.val * (0 + 1); omega
    | ⟨1, _⟩ => show k.val = 0 + k.val * (0 + 1); omega
  · exact extractStridedSlice_apply ![0, 0] x slices_S262144x90_S262144x63_0_0 (ix2 r k)
      (ix2 r (⟨k.val, by have := k.isLt; omega⟩ : Fin 90)) (fun a => match a with
        | ⟨0, _⟩ => by show r.val = 0 + r.val; omega
        | ⟨1, _⟩ => by show k.val = 0 + k.val; omega)

/-- The padded input at a column from 63 on is zero. -/
theorem paddedInput_outside (x : FVec Ideal S262144x90 .f32) (r : Fin 262144) (k : Fin 65) :
    paddedInput x (ix2 r (⟨63 + k.val, by have := k.isLt; omega⟩ : Fin 128)) = 0 := by
  refine (pad_apply_of_not_inside (s := S262144x63) ![0, 0] ![0, 65] ![0, 0] _ _ pads_S262144x63_S262144x128_000_0650 h_S_
    (ix2 r (⟨63 + k.val, by have := k.isLt; omega⟩ : Fin 128)) (1 : Fin 2) ?_).trans (padValue_eq _)
  show ¬(0 ≤ 63 + k.val ∧ (63 + k.val - 0) % 1 = 0 ∧ (63 + k.val - 0) / 1 < 63)
  rintro ⟨_, _, h⟩
  omega

/-- A matrix of 63 rows padded below to 128 rows, at a row below 63, is the matrix there. -/
theorem padRows_inside (W : FVec Ideal S63x256 .f32) (k : Fin 63) (j : Fin 256) :
    pad S128x256 ![0, 0] ![65, 0] ![0, 0] W (sitofp (F := Ideal) .f32 (constantI S_ 32 0#32)) pads_S63x256_S128x256_0650_000 h_S_
      (ix2 (⟨k.val, by have := k.isLt; omega⟩ : Fin 128) j) = W (ix2 k j) :=
  pad_apply_of_inside ![0, 0] ![65, 0] ![0, 0] W _ pads_S63x256_S128x256_0650_000 h_S_
    (ix2 (⟨k.val, by have := k.isLt; omega⟩ : Fin 128) j) (ix2 k j) (fun a => match a with
      | ⟨0, _⟩ => by show k.val = 0 + k.val * (0 + 1); omega
      | ⟨1, _⟩ => by show j.val = 0 + j.val * (0 + 1); omega)

/-- The widened first matrix at a row below 63 is the first matrix there. -/
theorem widenedFirst_inside (W0 : FVec Ideal S63x256 .f32) (k : Fin 63) (j : Fin 256) :
    widenedFirst W0 (ix2 (⟨k.val, by have := k.isLt; omega⟩ : Fin 128) j) = W0 (ix2 k j) :=
  padRows_inside W0 k j

/-- The widened sixth matrix at a row below 63 is the sixth matrix there. -/
theorem widenedSixth_top (W5 : FVec Ideal S319x256 .f32) (k : Fin 63) (j : Fin 256) :
    widenedSixth W5 (ix2 (⟨k.val, by have := k.isLt; omega⟩ : Fin 384) j)
      = W5 (ix2 (⟨k.val, by have := k.isLt; omega⟩ : Fin 319) j) := by
  refine (concatenate_apply_piece (t := S384x256) (0 : Fin 2) [⟨S128x256, sixthTop W5⟩, ⟨S256x256, sixthBottom W5⟩]
    concatenates_S128x256_S256x256_S384x256_d0
    (ix2 (⟨k.val, by have := k.isLt; omega⟩ : Fin 384) j) 0 Nat.zero_lt_two S128x256 (sixthTop W5) rfl rfl 0 rfl
    (ix2 (⟨k.val, by have := k.isLt; omega⟩ : Fin 128) j) (fun b hb => ?_) ?_).trans ?_
  · match b, hb with
    | ⟨0, _⟩, hb => exact absurd rfl hb
    | ⟨1, _⟩, _ => rfl
  · show 0 + k.val = k.val; omega
  · refine (padRows_inside _ k j).trans ?_
    exact extractStridedSlice_apply ![0, 0] W5 slices_S319x256_S63x256_0_0 (ix2 k j)
      (ix2 (⟨k.val, by have := k.isLt; omega⟩ : Fin 319) j) (fun a => match a with
        | ⟨0, _⟩ => by show k.val = 0 + k.val; omega
        | ⟨1, _⟩ => by show j.val = 0 + j.val; omega)

/-- The widened sixth matrix at row 128 + k is the sixth matrix at row 63 + k. -/
theorem widenedSixth_bottom (W5 : FVec Ideal S319x256 .f32) (k : Fin 256) (j : Fin 256) :
    widenedSixth W5 (ix2 (⟨63 + 65 + k.val, by have := k.isLt; omega⟩ : Fin 384) j)
      = W5 (ix2 (⟨63 + k.val, by have := k.isLt; omega⟩ : Fin 319) j) := by
  refine (concatenate_apply_piece (t := S384x256) (0 : Fin 2) [⟨S128x256, sixthTop W5⟩, ⟨S256x256, sixthBottom W5⟩]
    concatenates_S128x256_S256x256_S384x256_d0
    (ix2 (⟨63 + 65 + k.val, by have := k.isLt; omega⟩ : Fin 384) j) 1 Nat.one_lt_two S256x256 (sixthBottom W5) rfl rfl 128 rfl
    (ix2 k j) (fun b hb => ?_) ?_).trans ?_
  · match b, hb with
    | ⟨0, _⟩, hb => exact absurd rfl hb
    | ⟨1, _⟩, _ => rfl
  · show 128 + k.val = 63 + 65 + k.val; omega
  · exact extractStridedSlice_apply ![63, 0] W5 slices_S319x256_S256x256_63_0 (ix2 k j)
      (ix2 (⟨63 + k.val, by have := k.isLt; omega⟩ : Fin 319) j) (fun a => match a with
        | ⟨0, _⟩ => by show 63 + k.val = 63 + k.val; rfl
        | ⟨1, _⟩ => by show j.val = 0 + j.val; omega)

/-- The wide network of row `r` of the padded input, with the two widened matrices, is the network of row `r`'s
    first 63 entries. -/
theorem wide_row_eq (W1 W2 W3 W4 W6 W7 : FVec Ideal S256x256 .f32) (b0 b1 b2 b3 b4 b5 b6 b7 : FVec Ideal S256 .f32)
    (Wout : FVec Ideal S256x4 .f32) (bout : FVec Ideal S4 .f32)
    (x : FVec Ideal S262144x90 .f32) (W0 : FVec Ideal S63x256 .f32) (W5 : FVec Ideal S319x256 .f32) (r : Fin 262144) :
    netWide W1 W2 W3 W4 W6 W7 b0 b1 b2 b3 b4 b5 b6 b7 Wout bout (row (paddedInput x) r) (widenedFirst W0) (widenedSixth W5)
      = net W1 W2 W3 W4 W6 W7 b0 b1 b2 b3 b4 b5 b6 b7 Wout bout (points x r) W0 W5 :=
  netWide_eq W1 W2 W3 W4 W6 W7 b0 b1 b2 b3 b4 b5 b6 b7 Wout bout (points x r) (row (paddedInput x) r) W0 (widenedFirst W0) W5
    (widenedSixth W5) (fun k => paddedInput_inside x r k) (fun k => paddedInput_outside x r k) (widenedFirst_inside W0)
    (widenedSixth_top W5) (widenedSixth_bottom W5)

end Cert.Mlp.Kernel

end
-- ==== Proof.Entry.lean ====
/-
  The three arrays the kernel's program prepares, as the launch finds them.

  Before the launch the program pads the input's first 63 columns to 128, pads the first weight matrix to 128
  rows, and builds the sixth weight matrix's 384-row form from its two slices. Read off the program's host
  operations, the launch's first, second and twelfth operands are exactly those three arrays of the argument
  arrays in memory.
-/
import proofs.«122581_j67826123539074_2_alg».proof.Proof.Gen.KernelIdeal.Frame
import proofs.«122581_j67826123539074_2_alg».proof.Proof.Padding
import Idealize.ShloMosaic.Lib.StableHlo.Run

noncomputable section

namespace Cert.Mlp.Kernel

open Idealize.ShloMosaic Idealize.ShloMosaic.ValueIdx Idealize.ShloMosaic.TcCoe Idealize.SL.Sem Cert.Mlp
open Cert.KernelIdeal Cert.KernelIdeal.Gen

variable (m : (ℓ : Loc nD τ sig) → Buf (Elt Ideal) ℓ)

/-- The launch's first operand is the padded input. -/
theorem entry_input (c : Dev nD) :
    (V m c main_v6 : FVec Ideal S262144x128 .f32) = paddedInput (m ((c : Thread nD τ).loc main_arg0)) := by
  dsimp only [V]
  simp only [hostOps0, hostOps0_1, hostOps0_2, hostOps0_3, hostOps0_4, hostOps0_5, List.flatten_cons, List.flatten_nil, List.append_nil, List.cons_append, List.nil_append]
  after_results
  rfl

/-- The launch's second operand is the widened first matrix. -/
theorem entry_first (c : Dev nD) :
    (V m c main_v0 : FVec Ideal S128x256 .f32) = widenedFirst (m ((c : Thread nD τ).loc main_arg1)) := by
  dsimp only [V]
  simp only [hostOps0, hostOps0_1, hostOps0_2, hostOps0_3, hostOps0_4, hostOps0_5, List.flatten_cons, List.flatten_nil, List.append_nil, List.cons_append, List.nil_append]
  after_results
  rfl

/-- The launch's twelfth operand is the widened sixth matrix. -/
theorem entry_sixth (c : Dev nD) :
    (V m c main_v4 : FVec Ideal S384x256 .f32) = widenedSixth (m ((c : Thread nD τ).loc main_arg11)) := by
  dsimp only [V]
  simp only [hostOps0, hostOps0_1, hostOps0_2, hostOps0_3, hostOps0_4, hostOps0_5, List.flatten_cons, List.flatten_nil, List.append_nil, List.cons_append, List.nil_append]
  after_results
  rfl

end Cert.Mlp.Kernel

end
-- ==== Proof.Blocks.lean ====
/-
  Where each operand's block sits in its array.

  The grid has 64 points. At point `t` the input's block and the output's block are the same 4096 rows (block
  index `t` along the rows, index 0 along the columns); every weight matrix and bias vector is one block, the
  whole array, at every point. The relations between the printed index maps are decided once over the 64 points.
-/
import proofs.«122581_j67826123539074_2_alg».proof.Proof.Gen.KernelIdeal.Frame
import proofs.«122581_j67826123539074_2_alg».proof.Proof.Net

noncomputable section

namespace Cert.Mlp.Kernel

open Idealize.ShloMosaic Idealize.ShloMosaic.ValueIdx Idealize.ShloMosaic.TcCoe Idealize.SL.Sem Cert.Mlp
open Cert.KernelIdeal Cert.KernelIdeal.Gen

variable (m : (ℓ : Loc nD τ sig) → Buf (Elt Ideal) ℓ)

/-- The printed index maps over the grid: the input's block index is the output's along the rows and zero along
    the columns, the output's is at most 63 along the rows and zero along the columns, and every other operand's
    block index is zero on every axis. -/
theorem idx_facts : ∀ t : Fin cfg0.N,
    win0_0.index t (0 : Fin 2) = win0_19.index t (0 : Fin 2)
    ∧ win0_0.index t (1 : Fin 2) = 0
    ∧ win0_19.index t (1 : Fin 2) = 0
    ∧ win0_19.index t (0 : Fin 2) ≤ 63
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = 0
    ∧ win0_13.index t (1 : Fin 2) = 0
    ∧ win0_14.index t (0 : Fin 1) = 0
    ∧ win0_15.index t (0 : Fin 2) = 0
    ∧ win0_15.index t (1 : Fin 2) = 0
    ∧ win0_16.index t (0 : Fin 1) = 0
    ∧ win0_17.index t (0 : Fin 2) = 0
    ∧ win0_17.index t (1 : Fin 2) = 0
    ∧ win0_18.index t (0 : Fin 1) = 0 :=
  (by decide +kernel : ∀ t : Fin grid0.N, _)

/-- Every block of rows is some point's. -/
theorem idx_onto : ∀ q : Fin 64, ∃ t : Fin cfg0.N, win0_19.index t (0 : Fin 2) = q.val :=
  (by decide +kernel : ∀ q : Fin 64, ∃ t : Fin grid0.N, win0_19.index t (0 : Fin 2) = q.val)

/-- Row `p` of the input's block at point `t` is row (block index × 4096 + p) of the launch's first operand. -/
theorem blk0_row (c : Dev nD) (t : Fin cfg0.N) (p : Fin 4096) :
    row (iblk m c 0 t : FVec Ideal S4096x128 .f32) p
      = row (V m c main_v6 : FVec Ideal S262144x128 .f32)
          (⟨win0_19.index t (0 : Fin 2) * 4096 + p.val, by have := (idx_facts t).2.2.2.1; have := p.isLt; omega⟩ : Fin 262144) := by
  funext k
  show V m c main_v6 (((cfg0.win 0).blk t).view.emb (ix2 p k))
    = V m c main_v6 (ix2 (⟨win0_19.index t (0 : Fin 2) * 4096 + p.val, by have := (idx_facts t).2.2.2.1; have := p.isLt; omega⟩ : Fin 262144) k)
  refine congrArg (V m c main_v6) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_0.index t (0 : Fin 2) * 4096 + 1 * p.val = win0_19.index t (0 : Fin 2) * 4096 + p.val; omega
    | ⟨1, _⟩ => show win0_0.index t (1 : Fin 2) * 128 + 1 * k.val = k.val; omega

/-! Every other operand's block is its whole array. -/

theorem blk1 (c : Dev nD) (t : Fin cfg0.N) : (iblk m c 1 t : FVec Ideal S128x256 .f32) = V m c main_v0 := by
  funext y
  show V m c main_v0 (((cfg0.win 1).blk t).view.emb y) = V m c main_v0 y
  refine congrArg (V m c main_v0) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_1.index t (0 : Fin 2) * 128 + 1 * (y 0).val = (y 0).val; omega
    | ⟨1, _⟩ => show win0_1.index t (1 : Fin 2) * 256 + 1 * (y 1).val = (y 1).val; omega

theorem blk2 (c : Dev nD) (t : Fin cfg0.N) : (iblk m c 2 t : FVec Ideal S256 .f32) = V m c main_arg2 := by
  funext y
  show V m c main_arg2 (((cfg0.win 2).blk t).view.emb y) = V m c main_arg2 y
  refine congrArg (V m c main_arg2) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_2.index t (0 : Fin 1) * 256 + 1 * (y 0).val = (y 0).val; omega

theorem blk3 (c : Dev nD) (t : Fin cfg0.N) : (iblk m c 3 t : FVec Ideal S256x256 .f32) = V m c main_arg3 := by
  funext y
  show V m c main_arg3 (((cfg0.win 3).blk t).view.emb y) = V m c main_arg3 y
  refine congrArg (V m c main_arg3) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_3.index t (0 : Fin 2) * 256 + 1 * (y 0).val = (y 0).val; omega
    | ⟨1, _⟩ => show win0_3.index t (1 : Fin 2) * 256 + 1 * (y 1).val = (y 1).val; omega

theorem blk4 (c : Dev nD) (t : Fin cfg0.N) : (iblk m c 4 t : FVec Ideal S256 .f32) = V m c main_arg4 := by
  funext y
  show V m c main_arg4 (((cfg0.win 4).blk t).view.emb y) = V m c main_arg4 y
  refine congrArg (V m c main_arg4) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_4.index t (0 : Fin 1) * 256 + 1 * (y 0).val = (y 0).val; omega

theorem blk5 (c : Dev nD) (t : Fin cfg0.N) : (iblk m c 5 t : FVec Ideal S256x256 .f32) = V m c main_arg5 := by
  funext y
  show V m c main_arg5 (((cfg0.win 5).blk t).view.emb y) = V m c main_arg5 y
  refine congrArg (V m c main_arg5) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_5.index t (0 : Fin 2) * 256 + 1 * (y 0).val = (y 0).val; omega
    | ⟨1, _⟩ => show win0_5.index t (1 : Fin 2) * 256 + 1 * (y 1).val = (y 1).val; omega

theorem blk6 (c : Dev nD) (t : Fin cfg0.N) : (iblk m c 6 t : FVec Ideal S256 .f32) = V m c main_arg6 := by
  funext y
  show V m c main_arg6 (((cfg0.win 6).blk t).view.emb y) = V m c main_arg6 y
  refine congrArg (V m c main_arg6) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_6.index t (0 : Fin 1) * 256 + 1 * (y 0).val = (y 0).val; omega

theorem blk7 (c : Dev nD) (t : Fin cfg0.N) : (iblk m c 7 t : FVec Ideal S256x256 .f32) = V m c main_arg7 := by
  funext y
  show V m c main_arg7 (((cfg0.win 7).blk t).view.emb y) = V m c main_arg7 y
  refine congrArg (V m c main_arg7) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_7.index t (0 : Fin 2) * 256 + 1 * (y 0).val = (y 0).val; omega
    | ⟨1, _⟩ => show win0_7.index t (1 : Fin 2) * 256 + 1 * (y 1).val = (y 1).val; omega

theorem blk8 (c : Dev nD) (t : Fin cfg0.N) : (iblk m c 8 t : FVec Ideal S256 .f32) = V m c main_arg8 := by
  funext y
  show V m c main_arg8 (((cfg0.win 8).blk t).view.emb y) = V m c main_arg8 y
  refine congrArg (V m c main_arg8) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_8.index t (0 : Fin 1) * 256 + 1 * (y 0).val = (y 0).val; omega

theorem blk9 (c : Dev nD) (t : Fin cfg0.N) : (iblk m c 9 t : FVec Ideal S256x256 .f32) = V m c main_arg9 := by
  funext y
  show V m c main_arg9 (((cfg0.win 9).blk t).view.emb y) = V m c main_arg9 y
  refine congrArg (V m c main_arg9) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_9.index t (0 : Fin 2) * 256 + 1 * (y 0).val = (y 0).val; omega
    | ⟨1, _⟩ => show win0_9.index t (1 : Fin 2) * 256 + 1 * (y 1).val = (y 1).val; omega

theorem blk10 (c : Dev nD) (t : Fin cfg0.N) : (iblk m c 10 t : FVec Ideal S256 .f32) = V m c main_arg10 := by
  funext y
  show V m c main_arg10 (((cfg0.win 10).blk t).view.emb y) = V m c main_arg10 y
  refine congrArg (V m c main_arg10) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_10.index t (0 : Fin 1) * 256 + 1 * (y 0).val = (y 0).val; omega

theorem blk11 (c : Dev nD) (t : Fin cfg0.N) : (iblk m c 11 t : FVec Ideal S384x256 .f32) = V m c main_v4 := by
  funext y
  show V m c main_v4 (((cfg0.win 11).blk t).view.emb y) = V m c main_v4 y
  refine congrArg (V m c main_v4) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_11.index t (0 : Fin 2) * 384 + 1 * (y 0).val = (y 0).val; omega
    | ⟨1, _⟩ => show win0_11.index t (1 : Fin 2) * 256 + 1 * (y 1).val = (y 1).val; omega

theorem blk12 (c : Dev nD) (t : Fin cfg0.N) : (iblk m c 12 t : FVec Ideal S256 .f32) = V m c main_arg12 := by
  funext y
  show V m c main_arg12 (((cfg0.win 12).blk t).view.emb y) = V m c main_arg12 y
  refine congrArg (V m c main_arg12) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_12.index t (0 : Fin 1) * 256 + 1 * (y 0).val = (y 0).val; omega

theorem blk13 (c : Dev nD) (t : Fin cfg0.N) : (iblk m c 13 t : FVec Ideal S256x256 .f32) = V m c main_arg13 := by
  funext y
  show V m c main_arg13 (((cfg0.win 13).blk t).view.emb y) = V m c main_arg13 y
  refine congrArg (V m c main_arg13) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_13.index t (0 : Fin 2) * 256 + 1 * (y 0).val = (y 0).val; omega
    | ⟨1, _⟩ => show win0_13.index t (1 : Fin 2) * 256 + 1 * (y 1).val = (y 1).val; omega

theorem blk14 (c : Dev nD) (t : Fin cfg0.N) : (iblk m c 14 t : FVec Ideal S256 .f32) = V m c main_arg14 := by
  funext y
  show V m c main_arg14 (((cfg0.win 14).blk t).view.emb y) = V m c main_arg14 y
  refine congrArg (V m c main_arg14) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_14.index t (0 : Fin 1) * 256 + 1 * (y 0).val = (y 0).val; omega

theorem blk15 (c : Dev nD) (t : Fin cfg0.N) : (iblk m c 15 t : FVec Ideal S256x256 .f32) = V m c main_arg15 := by
  funext y
  show V m c main_arg15 (((cfg0.win 15).blk t).view.emb y) = V m c main_arg15 y
  refine congrArg (V m c main_arg15) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_15.index t (0 : Fin 2) * 256 + 1 * (y 0).val = (y 0).val; omega
    | ⟨1, _⟩ => show win0_15.index t (1 : Fin 2) * 256 + 1 * (y 1).val = (y 1).val; omega

theorem blk16 (c : Dev nD) (t : Fin cfg0.N) : (iblk m c 16 t : FVec Ideal S256 .f32) = V m c main_arg16 := by
  funext y
  show V m c main_arg16 (((cfg0.win 16).blk t).view.emb y) = V m c main_arg16 y
  refine congrArg (V m c main_arg16) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_16.index t (0 : Fin 1) * 256 + 1 * (y 0).val = (y 0).val; omega

theorem blk17 (c : Dev nD) (t : Fin cfg0.N) : (iblk m c 17 t : FVec Ideal S256x4 .f32) = V m c main_arg17 := by
  funext y
  show V m c main_arg17 (((cfg0.win 17).blk t).view.emb y) = V m c main_arg17 y
  refine congrArg (V m c main_arg17) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_17.index t (0 : Fin 2) * 256 + 1 * (y 0).val = (y 0).val; omega
    | ⟨1, _⟩ => show win0_17.index t (1 : Fin 2) * 4 + 1 * (y 1).val = (y 1).val; omega

theorem blk18 (c : Dev nD) (t : Fin cfg0.N) : (iblk m c 18 t : FVec Ideal S4 .f32) = V m c main_arg18 := by
  funext y
  show V m c main_arg18 (((cfg0.win 18).blk t).view.emb y) = V m c main_arg18 y
  refine congrArg (V m c main_arg18) (funext fun a => Fin.ext ?_)
  obtain ⟨e0, e1, e2, e3, e4, e5, e6, e7, e8, e9, e10, e11, e12, e13, e14, e15, e16, e17, e18, e19, e20, e21, e22, e23, e24, e25, e26, e27, e28, e29, e30⟩ := idx_facts t
  match a with
    | ⟨0, _⟩ => show win0_18.index t (0 : Fin 1) * 4 + 1 * (y 0).val = (y 0).val; omega

end Cert.Mlp.Kernel

end
-- ==== Proof.KernelRun.lean ====
/-
  The kernel's result array is the network applied to every row of the input.

  At grid point `t` the body stores, in row `p` of the output block, the wide network of row `p` of the input
  block. That row is row (t · 4096 + p) of the padded input; the weight blocks are the whole (widened) arrays; and
  the wide network of a padded row with the widened matrices is the network of the row's first 63 entries. So the
  block written back at `t` is block `t` of ONE array, the network of every input row. The 64 blocks of 4096 rows
  tile the 262144 rows, so after the run the output array is that array.
-/
import proofs.«122581_j67826123539074_2_alg».proof.Proof.Gen.KernelIdeal.Value
import proofs.«122581_j67826123539074_2_alg».proof.Proof.Body
import proofs.«122581_j67826123539074_2_alg».proof.Proof.Entry
import proofs.«122581_j67826123539074_2_alg».proof.Proof.Blocks
import proofs.«122581_j67826123539074_2_alg».proof.Proof.Rows

noncomputable section

namespace Cert.Mlp.Kernel

open Idealize.ShloMosaic Idealize.ShloMosaic.ValueIdx Idealize.ShloMosaic.TcCoe Idealize.SL.Sem Cert.Mlp
open Cert.KernelIdeal Cert.KernelIdeal.Gen
open Idealize.ShloMosaic.Pipeline (Dat)

variable (m : (ℓ : Loc nD τ sig) → Buf (Elt Ideal) ℓ) (ρ : Dev nD → PrngReg)

/-- The network applied to every row of the input array in memory, with the weights and biases in memory. -/
def result (c : Dev nD) : FVec Ideal S262144x4 .f32 :=
  netRows (m ((c : Thread nD τ).loc main_arg3)) (m ((c : Thread nD τ).loc main_arg5)) (m ((c : Thread nD τ).loc main_arg7)) (m ((c : Thread nD τ).loc main_arg9)) (m ((c : Thread nD τ).loc main_arg13)) (m ((c : Thread nD τ).loc main_arg15)) (m ((c : Thread nD τ).loc main_arg2)) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg17)) (m ((c : Thread nD τ).loc main_arg18)) (m ((c : Thread nD τ).loc main_arg0)) (m ((c : Thread nD τ).loc main_arg1)) (m ((c : Thread nD τ).loc main_arg11))

/-- What point `t` writes back is block `t` of `result`. -/
theorem flushed_eq (c : Dev nD) (t : Fin cfg0.N) :
    (dats m 0 c).flushed 19 t = ((cfg0.win 19).blk t).view.read (Elt Ideal) (result m c) := by
  rw [Value.flushed19]
  funext j
  have key : ∀ y : S4096x4.Idx, out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) y
      = result m c (((cfg0.win 19).blk t).view.emb y) := by
    intro y
    obtain ⟨p, o, rfl⟩ : ∃ (p : Fin 4096) (o : Fin 4), y = ix2 p o := ⟨y 0, y 1, eq_ix2 y⟩
    have h63 : win0_19.index t (0 : Fin 2) ≤ 63 := (idx_facts t).2.2.2.1
    have hcol : win0_19.index t (1 : Fin 2) = 0 := (idx_facts t).2.2.1
    have hemb : ((cfg0.win 19).blk t).view.emb (ix2 p o)
        = ix2 (⟨win0_19.index t (0 : Fin 2) * 4096 + p.val, by have := p.isLt; omega⟩ : Fin 262144) o := by
      funext a
      apply Fin.ext
      match a with
      | ⟨0, _⟩ => show win0_19.index t (0 : Fin 2) * 4096 + 1 * p.val = win0_19.index t (0 : Fin 2) * 4096 + p.val; omega
      | ⟨1, _⟩ => show win0_19.index t (1 : Fin 2) * 4 + 1 * o.val = o.val; omega
    rw [hemb]
    refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p o).trans ?_
    rw [blk0_row m c t p, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, entry_input m c, entry_first m c, entry_sixth m c,
      V_main_arg2 m c, V_main_arg3 m c, V_main_arg4 m c, V_main_arg5 m c, V_main_arg6 m c, V_main_arg7 m c, V_main_arg8 m c, V_main_arg9 m c, V_main_arg10 m c, V_main_arg12 m c, V_main_arg13 m c, V_main_arg14 m c, V_main_arg15 m c, V_main_arg16 m c, V_main_arg17 m c, V_main_arg18 m c, wide_row_eq]
    rfl
  exact key j

/-- An index of the output array is in point `t`'s block iff each coordinate is in the block's range. -/
theorem mem_blk (t : Fin cfg0.N) (i : S262144x4.Idx) :
    i ∈ ((cfg0.win 19).blk t).view.set ↔ ∀ a : Fin 2, win0_19.index t a * S4096x4.size a ≤ (i a).val
      ∧ (i a).val < win0_19.index t a * S4096x4.size a + S4096x4.size a := by
  show i ∈ ((View.whole main_v7).slice (win0_19.rect t)).set ↔ _
  rw [View.set_slice_whole, Rect.mem_set_unit]
  exact Iff.rfl

/-- Every index of the output array is in some point's block: row `r` is in block `r / 4096`. -/
theorem cover (i : S262144x4.Idx) :
    ∃ t : Fin cfg0.N, (cfg0.win 19).flush t = true ∧ i ∈ ((cfg0.win 19).blk t).view.set := by
  have hi0 : (i 0).val < 262144 := (i 0).isLt
  have hi1 : (i 1).val < 4 := (i 1).isLt
  obtain ⟨t, ht⟩ := idx_onto ⟨(i 0).val / 4096, by omega⟩
  have q0 : win0_19.index t (0 : Fin 2) = (i 0).val / 4096 := ht
  have q1 : win0_19.index t (1 : Fin 2) = 0 := (idx_facts t).2.2.1
  refine ⟨t, flush0_19 t, ?_⟩
  rw [mem_blk]
  intro a
  match a with
  | ⟨0, _⟩ =>
    show win0_19.index t (0 : Fin 2) * 4096 ≤ (i 0).val ∧ (i 0).val < win0_19.index t (0 : Fin 2) * 4096 + 4096
    omega
  | ⟨1, _⟩ =>
    show win0_19.index t (1 : Fin 2) * 4 ≤ (i 1).val ∧ (i 1).val < win0_19.index t (1 : Fin 2) * 4 + 4
    omega

/-- After the run the output array is `result`. -/
theorem final (c : Dev nD) : (dats m 0 c).arrAt 19 cfg0.N = result m c :=
  (dats m 0 c).arrAt_eq_of_cover 19 (result m c) (fun t _ => flushed_eq m c t) cover

/-- The kernel's run: every weakly fair execution terminates with the output array at `result` and the argument
    arrays unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩) (Value.run_blocks m ρ)

end Cert.Mlp.Kernel

end
-- ==== Proof.RefNet.lean ====
/-
  The reference computes the network row by row.

  Its program is nine products with bias, eight of them rectified, and one concatenation, all on whole arrays of
  262144 rows; each acts on every row by itself, so row `r` of its result is the network of row `r` of the
  sliced input, that is of the first 63 entries of row `r` of the input.
-/
import proofs.«122581_j67826123539074_2_alg».proof.Proof.Gen.ReferenceIdeal.Read
import proofs.«122581_j67826123539074_2_alg».proof.Proof.Layers
import proofs.«122581_j67826123539074_2_alg».proof.Proof.Rows

noncomputable section

namespace Cert.Mlp.Reference

open Idealize.ShloMosaic Idealize.ShloMosaic.ValueIdx Cert.Dense Cert.Mlp
open Cert.ReferenceIdeal Cert.ReferenceIdeal.Read

/-- Each of the reference's four contractions is rows times columns. -/
theorem first : RowsCols dot_S262144x63_S63x256_S262144x256_1_0_0_1_n_n :=
  ⟨rfl, rfl, lhs_main_v1_0, lhs_main_v1_1, rhs_main_v1_0, rhs_main_v1_1⟩
theorem mid : RowsCols dot_S262144x256_S256x256_S262144x256_1_0_0_1_n_n :=
  ⟨rfl, rfl, lhs_main_v6_0, lhs_main_v6_1, rhs_main_v6_0, rhs_main_v6_1⟩
theorem skip : RowsCols dot_S262144x319_S319x256_S262144x256_1_0_0_1_n_n :=
  ⟨rfl, rfl, lhs_main_v27_0, lhs_main_v27_1, rhs_main_v27_0, rhs_main_v27_1⟩
theorem out : RowsCols dot_S262144x256_S256x4_S262144x4_1_0_0_1_n_n :=
  ⟨rfl, rfl, lhs_main_v42_0, lhs_main_v42_1, rhs_main_v42_0, rhs_main_v42_1⟩

/-- Row `r` of the sliced input is the first 63 entries of row `r` of the input. -/
theorem slice_row (x0 : FVec Ideal S262144x90 .f32) (r : Fin 262144) :
    row (val_main_v0 (F := Ideal) x0) r = points x0 r := by
  funext k
  show val_main_v0 (F := Ideal) x0 (ix2 r k) = x0 (ix2 r (⟨k.val, by have := k.isLt; omega⟩ : Fin 90))
  rw [val_main_v0_apply]
  refine congrArg x0 (funext fun a => ?_)
  match a with
  | ⟨0, _⟩ => rfl
  | ⟨1, _⟩ => rfl

/-- Row `r` of the reference's result is the network of row `r` of the sliced input. -/
theorem reference_row (x0 : FVec Ideal S262144x90 .f32) (x1 : FVec Ideal S63x256 .f32) (x2 : FVec Ideal S256 .f32) (x3 : FVec Ideal S256x256 .f32) (x4 : FVec Ideal S256 .f32) (x5 : FVec Ideal S256x256 .f32) (x6 : FVec Ideal S256 .f32) (x7 : FVec Ideal S256x256 .f32) (x8 : FVec Ideal S256 .f32) (x9 : FVec Ideal S256x256 .f32) (x10 : FVec Ideal S256 .f32) (x11 : FVec Ideal S319x256 .f32) (x12 : FVec Ideal S256 .f32) (x13 : FVec Ideal S256x256 .f32) (x14 : FVec Ideal S256 .f32) (x15 : FVec Ideal S256x256 .f32) (x16 : FVec Ideal S256 .f32) (x17 : FVec Ideal S256x4 .f32) (x18 : FVec Ideal S4 .f32) (r : Fin 262144) :
    row (val_main_v45 (F := Ideal) x0 x1 x2 x3 x4 x5 x6 x7 x8 x9 x10 x11 x12 x13 x14 x15 x16 x17 x18) r
      = net x3 x5 x7 x9 x13 x15 x2 x4 x6 x8 x10 x12 x14 x16 x17 x18 (row (val_main_v0 (F := Ideal) x0) r) x1 x11 := by
  rw [← val_main_v45_eq]
  unfold val_main_v0
  rw [host_affine_row out _ _, host_layer_row mid _ _ _, host_layer_row mid _ _ _, host_layer_row skip _ _ _, concat_row,
    host_layer_row mid _ _ _, host_layer_row mid _ _ _, host_layer_row mid _ _ _, host_layer_row mid _ _ _,
    host_layer_row first _ _ _]
  rfl

/-- The reference's result is the network applied to every row of the input. -/
theorem reference_eq (x0 : FVec Ideal S262144x90 .f32) (x1 : FVec Ideal S63x256 .f32) (x2 : FVec Ideal S256 .f32) (x3 : FVec Ideal S256x256 .f32) (x4 : FVec Ideal S256 .f32) (x5 : FVec Ideal S256x256 .f32) (x6 : FVec Ideal S256 .f32) (x7 : FVec Ideal S256x256 .f32) (x8 : FVec Ideal S256 .f32) (x9 : FVec Ideal S256x256 .f32) (x10 : FVec Ideal S256 .f32) (x11 : FVec Ideal S319x256 .f32) (x12 : FVec Ideal S256 .f32) (x13 : FVec Ideal S256x256 .f32) (x14 : FVec Ideal S256 .f32) (x15 : FVec Ideal S256x256 .f32) (x16 : FVec Ideal S256 .f32) (x17 : FVec Ideal S256x4 .f32) (x18 : FVec Ideal S4 .f32) :
    val_main_v45 (F := Ideal) x0 x1 x2 x3 x4 x5 x6 x7 x8 x9 x10 x11 x12 x13 x14 x15 x16 x17 x18 = netRows x3 x5 x7 x9 x13 x15 x2 x4 x6 x8 x10 x12 x14 x16 x17 x18 x0 x1 x11 := by
  funext i
  obtain ⟨r, o, rfl⟩ : ∃ (r : Fin 262144) (o : Fin 4), i = ix2 r o := ⟨i 0, i 1, eq_ix2 i⟩
  refine (congrFun (reference_row x0 x1 x2 x3 x4 x5 x6 x7 x8 x9 x10 x11 x12 x13 x14 x15 x16 x17 x18 r) o).trans ?_
  rw [slice_row]
  rfl

end Cert.Mlp.Reference

end
-- ==== Proof.lean ====
/-
  A multilayer perceptron with one skip connection, computed by a kernel on blocks of rows and by a reference on
  the whole input; on the extended reals the two results are the same array.

  The network (Proof/Net.lean) takes one input row of 63 entries through five rectified linear layers, lays the
  input row in front of the fifth layer's output, and applies three more rectified layers and a last linear layer
  to 4 entries. The reference (Proof/RefNet.lean) computes it on all 262144 rows at once: every operation acts
  on each row by itself, so row `r` of its result is the network of the first 63 entries of row `r` of the input.

  The kernel's program first pads the input's 63 columns with zeros to 128, pads the first weight matrix with 65
  rows to 128 rows, and puts 65 rows between the first 63 and the last 256 rows of the sixth weight matrix
  (Proof/Padding.lean, Proof/Entry.lean); then, at each of 64 grid points, its body computes the same layers on a
  block of 4096 padded rows (Proof/Body.lean) and writes a block of 4096 × 4 back. The 65 extra terms of the
  first and of the sixth layer's sums are `0 · w = 0`, so the network on the padded row with the widened
  matrices is the network on the row (Proof/Net.lean, `netWide_eq`): nothing has to be finite for that, only
  that a sum may be cut into consecutive ranges and that zero times anything is zero. The blocks tile the
  output array (Proof/Blocks.lean, Proof/KernelRun.lean), so the kernel's result is the network applied to
  every input row as well.

  The three frames are the two kernels' frame runs and the reference's run with its result dropped; the
  idealization rewrote nothing, so there is nothing to preserve.
-/
import proofs.«122581_j67826123539074_2_alg».proof.Defs
import proofs.«122581_j67826123539074_2_alg».proof.Proof.Gen.Kernel
import proofs.«122581_j67826123539074_2_alg».proof.Proof.Gen.Kernel.Skeleton
import proofs.«122581_j67826123539074_2_alg».proof.Proof.Gen.Kernel.Launch
import proofs.«122581_j67826123539074_2_alg».proof.Proof.Gen.Kernel.Points
import proofs.«122581_j67826123539074_2_alg».proof.Proof.Gen.Kernel.Frame
import proofs.«122581_j67826123539074_2_alg».proof.Proof.Gen.KernelIdeal
import proofs.«122581_j67826123539074_2_alg».proof.Proof.Gen.KernelIdeal.Skeleton
import proofs.«122581_j67826123539074_2_alg».proof.Proof.Gen.KernelIdeal.Launch
import proofs.«122581_j67826123539074_2_alg».proof.Proof.Gen.KernelIdeal.Points
import proofs.«122581_j67826123539074_2_alg».proof.Proof.Gen.KernelIdeal.Frame
import proofs.«122581_j67826123539074_2_alg».proof.Proof.Gen.ReferenceIdeal
import proofs.«122581_j67826123539074_2_alg».proof.Proof.Gen.Pre_finite_inputs
import proofs.«122581_j67826123539074_2_alg».proof.Proof.Gen.KernelIdeal.Value
import proofs.«122581_j67826123539074_2_alg».proof.Proof.Gen.ReferenceIdeal.Run
import proofs.«122581_j67826123539074_2_alg».proof.Proof.Gen.ReferenceIdeal.Read
import proofs.«122581_j67826123539074_2_alg».proof.Proof.KernelRun
import proofs.«122581_j67826123539074_2_alg».proof.Proof.RefNet
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nineteen arguments, the kernel's output array and the reference's result are
    both the network applied to every row of the input. -/
theorem algebraic : Cert.algebraic_KernelIdeal_ReferenceIdeal := by
  intro m ρ m' ρ' _ hagree
  refine ⟨fun c => Cert.Mlp.Kernel.result m c, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v45_eq, Cert.Mlp.Reference.reference_eq, h0, h1, h2, h3, h4, h5, h6, h7, h8, h9, h10, h11, h12, h13, h14, h15, h16, h17, h18]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
